-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S512x64 : Shape := ⟨2, ![512, 64]⟩
abbrev S512 : Shape := ⟨1, ![512]⟩
abbrev S2x512x512 : Shape := ⟨3, ![2, 512, 512]⟩
abbrev S2x512 : Shape := ⟨2, ![2, 512]⟩
abbrev S64x512 : Shape := ⟨2, ![64, 512]⟩
abbrev S64 : Shape := ⟨1, ![64]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64x512 .f32) (main_arg12 : FVec F S64 .f32) (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  let main_v54 : FVec F S64x512 .f32 := Host.absf main_arg11
  let main_cst_20 : FVec F S_ .f32 := constant S_ .f32 0x7F800000#32
  let main_v55 : FVec F S64x512 .f32 := broadcastInDim S64x512 ![] bcast_S_S64x512 main_cst_20
  let main_v56 : IVec S64x512 1 := cmpf .olt main_v54 main_v55
  let main_c_21 : IVec S_ 1 := constantI S_ 1 1#1
  let main_v57 : IVec S_ 1 := (fun x v => Host.reduce IntOp.andi x v reducesTo_S64x512_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S512x64 .f32) (main_arg8 : FVec F S512 .f32) (main_arg9 : FVec F S2x512x512 .f32) (main_arg10 : FVec F S2x512 .f32) (main_arg11 : FVec F S64x512 .f32) (main_arg12 : FVec F S64 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S2x512x512 .f32 := Host.absf main_arg9
  let main_cst_16 : FVec F S_ .f32 := constant S_ .f32 0x7F800000#32
  let main_v45 : FVec F S2x512x512 .f32 := broadcastInDim S2x512x512 ![] bcast_S_S2x512x512 main_cst_16
  let main_v46 : IVec S2x512x512 1 := cmpf .olt main_v44 main_v45
  let main_c_17 : IVec S_ 1 := constantI S_ 1 1#1
  let main_v47 : IVec S_ 1 := (fun x v => Host.reduce IntOp.andi x v reducesTo_S2x512x512_S_d0_1_2 h_S_) main_v46 main_c_17
  let main_v48 : IVec S_ 1 := andi main_v43 main_v47
  let main_v49 : FVec F S2x512 .f32 := Host.absf main_arg10
  let main_cst_18 : FVec F S_ .f32 := constant S_ .f32 0x7F800000#32
  let main_v50 : FVec F S2x512 .f32 := broadcastInDim S2x512 ![] bcast_S_S2x512 main_cst_18
  fn_part3 (F := F) main_arg11 main_arg12 main_v48 main_v49 main_v50

def fn_part1 {F : FTy → Type} [FloatOps F] (main_arg4 : FVec F S2x512 .f32) (main_arg5 : FVec F S64x512 .f32) (main_arg6 : FVec F S64 .f32) (main_arg7 : FVec F S512x64 .f32) (main_arg8 : FVec F S512 .f32) (main_arg9 : FVec F S2x512x512 .f32) (main_arg10 : FVec F S2x512 .f32) (main_arg11 : FVec F S64x512 .f32) (main_arg12 : FVec F S64 .f32) (main_v13 : IVec S_ 1) (main_v16 : IVec S2x512x512 1) : IVec S_ 1 :=
  let main_c_5 : IVec S_ 1 := constantI S_ 1 1#1
  let main_v17 : IVec S_ 1 := (fun x v => Host.reduce IntOp.andi x v reducesTo_S2x512x512_S_d0_1_2 h_S_) main_v16 main_c_5
  let main_v18 : IVec S_ 1 := andi main_v13 main_v17
  let main_v19 : FVec F S2x512 .f32 := Host.absf main_arg4
  let main_cst_6 : FVec F S_ .f32 := constant S_ .f32 0x7F800000#32
  let main_v20 : FVec F S2x512 .f32 := broadcastInDim S2x512 ![] bcast_S_S2x512 main_cst_6
  let main_v21 : IVec S2x512 1 := cmpf .olt main_v19 main_v20
  let main_c_7 : IVec S_ 1 := constantI S_ 1 1#1
  let main_v22 : IVec S_ 1 := (fun x v => Host.reduce IntOp.andi x v reducesTo_S2x512_S_d0_1 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x128 .f32) (main_arg1 : FVec F S512x64 .f32) (main_arg2 : FVec F S512 .f32) (main_arg3 : FVec F S2x512x512 .f32) (main_arg4 : FVec F S2x512 .f32) (main_arg5 : FVec F S64x512 .f32) (main_arg6 : FVec F S64 .f32) (main_arg7 : FVec F S512x64 .f32) (main_arg8 : FVec F S512 .f32) (main_arg9 : FVec F S2x512x512 .f32) (main_arg10 : FVec F S2x512 .f32) (main_arg11 : FVec F S64x512 .f32) (main_arg12 : FVec F S64 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2x512x512 .f32 := Host.absf main_arg3
  let main_cst_4 : FVec F S_ .f32 := constant S_ .f32 0x7F800000#32
  let main_v15 : FVec F S2x512x512 .f32 := broadcastInDim S2x512x512 ![] bcast_S_S2x512x512 main_cst_4
  let main_v16 : IVec S2x512x512 1 := cmpf .olt main_v14 main_v15
  fn_part1 (F := F) main_arg4 main_arg5 main_arg6 main_arg7 main_arg8 main_arg9 main_arg10 main_arg11 main_arg12 main_v13 main_v16
-- ==== Kernel.lean ====
abbrev S65536x128 : Shape := ⟨2, ![65536, 128]⟩
abbrev S512x64 : Shape := ⟨2, ![512, 64]⟩
abbrev S512 : Shape := ⟨1, ![512]⟩
abbrev S2x512x512 : Shape := ⟨3, ![2, 512, 512]⟩
abbrev S2x512 : Shape := ⟨2, ![2, 512]⟩
abbrev S64x512 : Shape := ⟨2, ![64, 512]⟩
abbrev S64 : Shape := ⟨1, ![64]⟩
abbrev S1024x64 : Shape := ⟨2, ![1024, 64]⟩
abbrev S64x1024 : Shape := ⟨2, ![64, 1024]⟩
abbrev S1024 : Shape := ⟨1, ![1024]⟩
abbrev S65536x1 : Shape := ⟨2, ![65536, 1]⟩
abbrev S2048x128 : Shape := ⟨2, ![2048, 128]⟩
abbrev S2048x1 : Shape := ⟨2, ![2048, 1]⟩
abbrev S2048x64 : Shape := ⟨2, ![2048, 64]⟩
abbrev S2048x1024 : Shape := ⟨2, ![2048, 1024]⟩
abbrev S1x1024 : Shape := ⟨2, ![1, 1024]⟩
abbrev S2048x512 : Shape := ⟨2, ![2048, 512]⟩
abbrev S1x512x512 : Shape := ⟨3, ![1, 512, 512]⟩
abbrev S512x512 : Shape := ⟨2, ![512, 512]⟩
abbrev S1x512 : Shape := ⟨2, ![1, 512]⟩
abbrev S1x64 : Shape := ⟨2, ![1, 64]⟩
abbrev S2048 : Shape := ⟨1, ![2048]⟩
abbrev S65536 : Shape := ⟨1, ![65536]⟩

abbrev nBuf : Space → Nat
  | .hbm => 28
  | .vmem => 16
  | .smem => 0
  | _ => 0

abbrev bufTy : (tb : Table) → Fin (tcTables nBuf tb) → BufTy
  | .hbm, ⟨0, _⟩ => ⟨S65536x128, .f32⟩
  | .hbm, ⟨1, _⟩ => ⟨S512x64, .f32⟩
  | .hbm, ⟨2, _⟩ => ⟨S512, .f32⟩
  | .hbm, ⟨3, _⟩ => ⟨S2x512x512, .f32⟩
  | .hbm, ⟨4, _⟩ => ⟨S2x512, .f32⟩
  | .hbm, ⟨5, _⟩ => ⟨S64x512, .f32⟩
  | .hbm, ⟨6, _⟩ => ⟨S64, .f32⟩
  | .hbm, ⟨7, _⟩ => ⟨S512x64, .f32⟩
  | .hbm, ⟨8, _⟩ => ⟨S512, .f32⟩
  | .hbm, ⟨9, _⟩ => ⟨S2x512x512, .f32⟩
  | .hbm, ⟨10, _⟩ => ⟨S2x512, .f32⟩
  | .hbm, ⟨11, _⟩ => ⟨S64x512, .f32⟩
  | .hbm, ⟨12, _⟩ => ⟨S64, .f32⟩
  | .hbm, ⟨13, _⟩ => ⟨S1024x64, .f32⟩
  | .hbm, ⟨14, _⟩ => ⟨S64x1024, .f32⟩
  | .hbm, ⟨15, _⟩ => ⟨S64x1024, .bf16⟩
  | .hbm, ⟨16, _⟩ => ⟨S1024, .f32⟩
  | .hbm, ⟨17, _⟩ => ⟨S2x512x512, .f32⟩
  | .hbm, ⟨18, _⟩ => ⟨S2x512x512, .bf16⟩
  | .hbm, ⟨19, _⟩ => ⟨S2x512x512, .f32⟩
  | .hbm, ⟨20, _⟩ => ⟨S2x512x512, .bf16⟩
  | .hbm, ⟨21, _⟩ => ⟨S512x64, .f32⟩
  | .hbm, ⟨22, _⟩ => ⟨S512x64, .bf16⟩
  | .hbm, ⟨23, _⟩ => ⟨S512x64, .f32⟩
  | .hbm, ⟨24, _⟩ => ⟨S512x64, .bf16⟩
  | .hbm, ⟨25, _⟩ => ⟨S65536x128, .f32⟩
  | .hbm, ⟨26, _⟩ => ⟨S65536x1, .f32⟩
  | .hbm, ⟨27, _⟩ => ⟨S65536, .f32⟩
  | .local _ .vmem, ⟨0, _⟩ => ⟨S2048x128, .f32⟩
  | .local _ .vmem, ⟨1, _⟩ => ⟨S2048x128, .f32⟩
  | .local _ .vmem, ⟨2, _⟩ => ⟨S64x1024, .bf16⟩
  | .local _ .vmem, ⟨3, _⟩ => ⟨S1024, .f32⟩
  | .local _ .vmem, ⟨4, _⟩ => ⟨S2x512x512, .bf16⟩
  | .local _ .vmem, ⟨5, _⟩ => ⟨S2x512, .f32⟩
  | .local _ .vmem, ⟨6, _⟩ => ⟨S512x64, .bf16⟩
  | .local _ .vmem, ⟨7, _⟩ => ⟨S64, .f32⟩
  | .local _ .vmem, ⟨8, _⟩ => ⟨S2x512x512, .bf16⟩
  | .local _ .vmem, ⟨9, _⟩ => ⟨S2x512, .f32⟩
  | .local _ .vmem, ⟨10, _⟩ => ⟨S512x64, .bf16⟩
  | .local _ .vmem, ⟨11, _⟩ => ⟨S64, .f32⟩
  | .local _ .vmem, ⟨12, _⟩ => ⟨S2048x128, .f32⟩
  | .local _ .vmem, ⟨13, _⟩ => ⟨S2048x128, .f32⟩
  | .local _ .vmem, ⟨14, _⟩ => ⟨S2048x1, .f32⟩
  | .local _ .vmem, ⟨15, _⟩ => ⟨S2048x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S512x64_S512x64_S1024x64_d0 : Shape.Concatenates [S512x64, S512x64] S1024x64 0
  transposes_S1024x64_S64x1024_1_0 : S1024x64.Transposes [1, 0] S64x1024
  bitsLt_bf16_f32 : FTy.bits .bf16 < FTy.bits .f32
  concatenates_S512_S512_S1024_d0 : Shape.Concatenates [S512, S512] S1024 0
  transposes_S2x512x512_S2x512x512_0_2_1 : S2x512x512.Transposes [0, 2, 1] S2x512x512
  transposes_S64x512_S512x64_1_0 : S64x512.Transposes [1, 0] S512x64
  inb_S2048x128_S2048x128_0_0 : ∀ a, (![0, 0] : Fin 2 → Nat) a + S2048x128.size a ≤ S2048x128.size a
  h_S2048x128 : 0 < S2048x128.numel
  slices_S2048x128_o0_0_S2048x64 : S2048x128.Slices ![0, 0] S2048x64
  slices_S2048x128_o0_64_S2048x64 : S2048x128.Slices ![0, 64] S2048x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S2048x1024 : S1x1024.Broadcasts S2048x1024
  slices_S2048x1024_o0_0_S2048x512 : S2048x1024.Slices ![0, 0] S2048x512
  slices_S2048x1024_o0_512_S2048x512 : S2048x1024.Slices ![0, 512] S2048x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S2x512_S1x512_0_0 : ∀ a, (![0, 0] : Fin 2 → Nat) a + S1x512.size a ≤ S2x512.size a
  h_S1x512 : 0 < S1x512.numel
  shapeCasts_S1x512_S512 : S1x512.ShapeCasts S512
  shapeCasts_S512_S1x512 : S512.ShapeCasts S1x512
  broadcasts_S1x512_S2048x512 : S1x512.Broadcasts S2048x512
  inb_S2x512x512_S1x512x512_1_0_0 : ∀ a, (![1, 0, 0] : Fin 3 → Nat) a + S1x512x512.size a ≤ S2x512x512.size a
  inb_S2x512_S1x512_1_0 : ∀ a, (![1, 0] : Fin 2 → Nat) a + S1x512.size a ≤ S2x512.size a
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  concatenates_S2048x64_S2048x64_S2048x128_d1 : Shape.Concatenates [S2048x64, S2048x64] S2048x128 1
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S65536x1_S65536 : S65536x1.ShapeCasts S65536
  dot_S2048x64_S64x1024_S2048x1024_1_0_0_1_n_n_wf : DotDims.WF S2048x64 S64x1024 S2048x1024 [1] [0] [0] [1] [] []
  dot_S2048x512_S512x512_S2048x512_1_0_0_1_n_n_wf : DotDims.WF S2048x512 S512x512 S2048x512 [1] [0] [0] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .bf16 = 32 ∨ (Rect.block (s := S64x1024) S64x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S2x512x512.size a
  hwx0_3 : ∀ i : grid0.Coords, EltTy.bits .bf16 = 32 ∨ (Rect.block (s := S2x512x512) S2x512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x512.size a
  hwx0_4 : ∀ i : grid0.Coords, EltTy.bits .f32 = 32 ∨ (Rect.block (s := S2x512) S2x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .bf16 = 32 ∨ (Rect.block (s := S512x64) S512x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x512x512.size a ≤ S2x512x512.size a
  hwx0_7 : ∀ i : grid0.Coords, EltTy.bits .bf16 = 32 ∨ (Rect.block (s := S2x512x512) S2x512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x512.size a ≤ S2x512.size a
  hwx0_8 : ∀ i : grid0.Coords, EltTy.bits .f32 = 32 ∨ (Rect.block (s := S2x512) S2x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S512x64.size a
  hwx0_9 : ∀ i : grid0.Coords, EltTy.bits .bf16 = 32 ∨ (Rect.block (s := S512x64) S512x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S65536x128.size a
  hwx0_11 : ∀ i : grid0.Coords, EltTy.bits .f32 = 32 ∨ (Rect.block (s := S65536x128) S2048x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S65536x1.size a
  hwx0_12 : ∀ i : grid0.Coords, EltTy.bits .f32 = 32 ∨ (Rect.block (s := S65536x1) S2048x1.size (cc0_transform_12 i) (hinb0_12 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2x512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S2x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S512x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S2048x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x128 : Shape := ⟨2, ![65536, 128]⟩
abbrev S512x64 : Shape := ⟨2, ![512, 64]⟩
abbrev S512 : Shape := ⟨1, ![512]⟩
abbrev S2x512x512 : Shape := ⟨3, ![2, 512, 512]⟩
abbrev S2x512 : Shape := ⟨2, ![2, 512]⟩
abbrev S64x512 : Shape := ⟨2, ![64, 512]⟩
abbrev S64 : Shape := ⟨1, ![64]⟩
abbrev S65536x64 : Shape := ⟨2, ![65536, 64]⟩
abbrev S65536x512 : Shape := ⟨2, ![65536, 512]⟩
abbrev S1x512 : Shape := ⟨2, ![1, 512]⟩
abbrev S_ : Shape := ⟨0, ![]⟩
abbrev S1x512x512 : Shape := ⟨3, ![1, 512, 512]⟩
abbrev S512x512 : Shape := ⟨2, ![512, 512]⟩
abbrev S1x64 : Shape := ⟨2, ![1, 64]⟩
abbrev S65536 : Shape := ⟨1, ![65536]⟩

abbrev nBuf : Space → Nat
  | .hbm => 103
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S512x64, .f32⟩
  | .hbm, ⟨2, _⟩ => ⟨S512, .f32⟩
  | .hbm, ⟨3, _⟩ => ⟨S2x512x512, .f32⟩
  | .hbm, ⟨4, _⟩ => ⟨S2x512, .f32⟩
  | .hbm, ⟨5, _⟩ => ⟨S64x512, .f32⟩
  | .hbm, ⟨6, _⟩ => ⟨S64, .f32⟩
  | .hbm, ⟨7, _⟩ => ⟨S512x64, .f32⟩
  | .hbm, ⟨8, _⟩ => ⟨S512, .f32⟩
  | .hbm, ⟨9, _⟩ => ⟨S2x512x512, .f32⟩
  | .hbm, ⟨10, _⟩ => ⟨S2x512, .f32⟩
  | .hbm, ⟨11, _⟩ => ⟨S64x512, .f32⟩
  | .hbm, ⟨12, _⟩ => ⟨S64, .f32⟩
  | .hbm, ⟨13, _⟩ => ⟨S65536x64, .f32⟩
  | .hbm, ⟨14, _⟩ => ⟨S65536x64, .f32⟩
  | .hbm, ⟨15, _⟩ => ⟨S64x512, .f32⟩
  | .hbm, ⟨16, _⟩ => ⟨S65536x512, .f32⟩
  | .hbm, ⟨17, _⟩ => ⟨S1x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S1x512x512, .f32⟩
  | .hbm, ⟨24, _⟩ => ⟨S512x512, .f32⟩
  | .hbm, ⟨25, _⟩ => ⟨S512x512, .f32⟩
  | .hbm, ⟨26, _⟩ => ⟨S65536x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S1x512x512, .f32⟩
  | .hbm, ⟨36, _⟩ => ⟨S512x512, .f32⟩
  | .hbm, ⟨37, _⟩ => ⟨S512x512, .f32⟩
  | .hbm, ⟨38, _⟩ => ⟨S65536x512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S65536x512, .f32⟩
  | .hbm, ⟨43, _⟩ => ⟨S65536x512, .f32⟩
  | .hbm, ⟨44, _⟩ => ⟨S_, .f32⟩
  | .hbm, ⟨45, _⟩ => ⟨S65536x512, .f32⟩
  | .hbm, ⟨46, _⟩ => ⟨S65536x512, .f32⟩
  | .hbm, ⟨47, _⟩ => ⟨S512x64, .f32⟩
  | .hbm, ⟨48, _⟩ => ⟨S65536x64, .f32⟩
  | .hbm, ⟨49, _⟩ => ⟨S1x64, .f32⟩
  | .hbm, ⟨50, _⟩ => ⟨S65536x64, .f32⟩
  | .hbm, ⟨51, _⟩ => ⟨S65536x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S65536x64, .f32⟩
  | .hbm, ⟨56, _⟩ => ⟨S65536x64, .f32⟩
  | .hbm, ⟨57, _⟩ => ⟨S_, .f32⟩
  | .hbm, ⟨58, _⟩ => ⟨S65536x64, .f32⟩
  | .hbm, ⟨59, _⟩ => ⟨S65536x64, .f32⟩
  | .hbm, ⟨60, _⟩ => ⟨S64x512, .f32⟩
  | .hbm, ⟨61, _⟩ => ⟨S65536x512, .f32⟩
  | .hbm, ⟨62, _⟩ => ⟨S1x512, .f32⟩
  | .hbm, ⟨63, _⟩ => ⟨S65536x512, .f32⟩
  | .hbm, ⟨64, _⟩ => ⟨S65536x512, .f32⟩
  | .hbm, ⟨65, _⟩ => ⟨S_, .f32⟩
  | .hbm, ⟨66, _⟩ => ⟨S65536x512, .f32⟩
  | .hbm, ⟨67, _⟩ => ⟨S65536x512, .f32⟩
  | .hbm, ⟨68, _⟩ => ⟨S1x512x512, .f32⟩
  | .hbm, ⟨69, _⟩ => ⟨S512x512, .f32⟩
  | .hbm, ⟨70, _⟩ => ⟨S512x512, .f32⟩
  | .hbm, ⟨71, _⟩ => ⟨S65536x512, .f32⟩
  | .hbm, ⟨72, _⟩ => ⟨S1x512, .f32⟩
  | .hbm, ⟨73, _⟩ => ⟨S512, .f32⟩
  | .hbm, ⟨74, _⟩ => ⟨S1x512, .f32⟩
  | .hbm, ⟨75, _⟩ => ⟨S65536x512, .f32⟩
  | .hbm, ⟨76, _⟩ => ⟨S65536x512, .f32⟩
  | .hbm, ⟨77, _⟩ => ⟨S_, .f32⟩
  | .hbm, ⟨78, _⟩ => ⟨S65536x512, .f32⟩
  | .hbm, ⟨79, _⟩ => ⟨S65536x512, .f32⟩
  | .hbm, ⟨80, _⟩ => ⟨S1x512x512, .f32⟩
  | .hbm, ⟨81, _⟩ => ⟨S512x512, .f32⟩
  | .hbm, ⟨82, _⟩ => ⟨S512x512, .f32⟩
  | .hbm, ⟨83, _⟩ => ⟨S65536x512, .f32⟩
  | .hbm, ⟨84, _⟩ => ⟨S1x512, .f32⟩
  | .hbm, ⟨85, _⟩ => ⟨S512, .f32⟩
  | .hbm, ⟨86, _⟩ => ⟨S1x512, .f32⟩
  | .hbm, ⟨87, _⟩ => ⟨S65536x512, .f32⟩
  | .hbm, ⟨88, _⟩ => ⟨S65536x512, .f32⟩
  | .hbm, ⟨89, _⟩ => ⟨S_, .f32⟩
  | .hbm, ⟨90, _⟩ => ⟨S65536x512, .f32⟩
  | .hbm, ⟨91, _⟩ => ⟨S65536x512, .f32⟩
  | .hbm, ⟨92, _⟩ => ⟨S512x64, .f32⟩
  | .hbm, ⟨93, _⟩ => ⟨S65536x64, .f32⟩
  | .hbm, ⟨94, _⟩ => ⟨S1x64, .f32⟩
  | .hbm, ⟨95, _⟩ => ⟨S65536x64, .f32⟩
  | .hbm, ⟨96, _⟩ => ⟨S65536x64, .f32⟩
  | .hbm, ⟨97, _⟩ => ⟨S65536x64, .f32⟩
  | .hbm, ⟨98, _⟩ => ⟨S65536x64, .f32⟩
  | .hbm, ⟨99, _⟩ => ⟨S65536x64, .f32⟩
  | .hbm, ⟨100, _⟩ => ⟨S65536x128, .f32⟩
  | .hbm, ⟨101, _⟩ => ⟨S_, .f32⟩
  | .hbm, ⟨102, _⟩ => ⟨S65536, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_cst : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_cst : Ref sig .tc := ⟨.hbm, 44, rfl⟩
abbrev main_call2_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_cst_0 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call4_cst : Ref sig .tc := ⟨.hbm, 65, rfl⟩
abbrev main_call4_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call5_cst : Ref sig .tc := ⟨.hbm, 77, rfl⟩
abbrev main_call5_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call6_cst : Ref sig .tc := ⟨.hbm, 89, rfl⟩
abbrev main_call6_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_1 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  slices_S65536x128_S65536x64_0_0 : S65536x128.Slices ![0, 0] S65536x64
  slices_S65536x128_S65536x64_0_64 : S65536x128.Slices ![0, 64] S65536x64
  transposes_S512x64_S64x512_1_0 : S512x64.Transposes [1, 0] S64x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  slices_S2x512x512_S1x512x512_0_0_0 : S2x512x512.Slices ![0, 0, 0] S1x512x512
  shapeCasts_S1x512x512_S512x512 : S1x512x512.ShapeCasts S512x512
  transposes_S512x512_S512x512_1_0 : S512x512.Transposes [1, 0] S512x512
  slices_S2x512_S1x512_0_0 : S2x512.Slices ![0, 0] S1x512
  shapeCasts_S1x512_S512 : S1x512.ShapeCasts S512
  slices_S2x512x512_S1x512x512_1_0_0 : S2x512x512.Slices ![1, 0, 0] S1x512x512
  slices_S2x512_S1x512_1_0 : S2x512.Slices ![1, 0] S1x512
  transposes_S64x512_S512x64_1_0 : S64x512.Transposes [1, 0] S512x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  concatenates_S65536x64_S65536x64_S65536x128_d1 : Shape.Concatenates [S65536x64, S65536x64] S65536x128 1
  reducesTo_S65536x64_S65536_d1 : S65536x64.ReducesTo [1] S65536
  h_S_ : 0 < S_.numel
  dot_S65536x64_S64x512_S65536x512_1_0_0_1_n_n_wf : DotDims.WF S65536x64 S64x512 S65536x512 [1] [0] [0] [1] [] []
  dot_S65536x512_S512x512_S65536x512_1_0_0_1_n_n_wf : DotDims.WF S65536x512 S512x512 S65536x512 [1] [0] [0] [1] [] []
  dot_S65536x512_S512x64_S65536x64_1_0_0_1_n_n_wf : DotDims.WF S65536x512 S512x64 S65536x64 [1] [0] [0] [1] [] []

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf

class Facts : Prop extends Facts₀ where

variable [Facts]
-- ==== Proof.Spec.lean ====
/-
  The affine coupling layer as mathematics, index by index, over the extended reals.

  A row r of z : [65536, 128] splits into a passthrough half (columns 0..63) and a transformed half (columns 64..127).
  Two four-layer perceptrons (64 → 512 → 512 → 512 → 64, ReLU between layers) read the passthrough half: s gives a
  log-scale that is clamped to [-2, 2], t gives a shift.  The layer returns
    z_out[r, c]      = z[r, c]                                                (c < 64)
    z_out[r, 64 + j] = z[r, 64 + j] · exp(clip(s(z1_r))_j) + t(z1_r)_j
    log_det[r]       = Σ_j clip(s(z1_r))_j.
  A dense unit is the inner product of the activation row with the unit's weight row plus the unit's bias, so every
  quantity below is a finite sum of products: no rearrangement of terms is ever needed to compare two programs that
  compute it unit by unit.
-/
import Idealize.ShloMosaic.PureOps.Ideal
import Idealize.ShloMosaic.Lib.ValueIdx

noncomputable section

namespace Cert.Coupling

open Idealize.ShloMosaic Idealize.ShloMosaic.ValueIdx

/-- One unit of a dense layer: the inner product of x and w, plus b. -/
def dense {K : ℕ} (x w : Fin K → EReal) (b : EReal) : EReal := (∑ k : Fin K, x k * w k) + b

/-- max(x, 0), the zero written as the float word both programs print. -/
def relu (x : EReal) : EReal := max x (Ideal.ofBits .f32 0x00000000#32)

/-- min(2, max(-2, x)), the bounds written as the float words both programs print. -/
def clip (x : EReal) : EReal := min (Ideal.ofBits .f32 0x40000000#32) (max (Ideal.ofBits .f32 0xC0000000#32) x)

/-- Output unit j of the perceptron on the input row x: W a b is the weight of unit a on input b. -/
def mlp (Win : Fin 512 → Fin 64 → EReal) (bin : Fin 512 → EReal)
    (Wh0 : Fin 512 → Fin 512 → EReal) (bh0 : Fin 512 → EReal)
    (Wh1 : Fin 512 → Fin 512 → EReal) (bh1 : Fin 512 → EReal)
    (Wo : Fin 64 → Fin 512 → EReal) (bo : Fin 64 → EReal) (x : Fin 64 → EReal) (j : Fin 64) : EReal :=
  dense (fun k2 => relu (dense (fun k1 => relu (dense (fun k0 => relu (dense x (Win k0) (bin k0))) (Wh0 k1) (bh0 k1)))
    (Wh1 k2) (bh1 k2))) (Wo j) (bo j)

/-- Column k of the passthrough half, and of the transformed half, among the 128 columns. -/
abbrev colL (k : Fin 64) : Fin 128 := ⟨k.val, by omega⟩
abbrev colR (k : Fin 64) : Fin 128 := ⟨64 + k.val, by omega⟩

abbrev SZ : Shape := ⟨2, ![65536, 128]⟩
abbrev SWin : Shape := ⟨2, ![512, 64]⟩
abbrev SBin : Shape := ⟨1, ![512]⟩
abbrev SWhid : Shape := ⟨3, ![2, 512, 512]⟩
abbrev SBhid : Shape := ⟨2, ![2, 512]⟩
abbrev SWout : Shape := ⟨2, ![64, 512]⟩
abbrev SBout : Shape := ⟨1, ![64]⟩
abbrev SLd : Shape := ⟨1, ![65536]⟩

/-- The perceptron with parameter arrays laid out as the layer receives them (W[unit, input], the two hidden layers
    stacked on a leading axis), applied to the passthrough half of row r. -/
def net (z : SZ.Idx → EReal) (Win : SWin.Idx → EReal) (bin : SBin.Idx → EReal) (Whid : SWhid.Idx → EReal)
    (bhid : SBhid.Idx → EReal) (Wout : SWout.Idx → EReal) (bout : SBout.Idx → EReal) (r : Fin 65536) (j : Fin 64) : EReal :=
  mlp (fun a b => Win (ix2 a b)) (fun a => bin (ix1 a))
    (fun a b => Whid (ix3 (0 : Fin 2) a b)) (fun a => bhid (ix2 (0 : Fin 2) a))
    (fun a b => Whid (ix3 (1 : Fin 2) a b)) (fun a => bhid (ix2 (1 : Fin 2) a))
    (fun a b => Wout (ix2 a b)) (fun a => bout (ix1 a)) (fun k => z (ix2 r (colL k))) j

section
variable (z : SZ.Idx → EReal)
  (sWin : SWin.Idx → EReal) (sbin : SBin.Idx → EReal) (sWhid : SWhid.Idx → EReal) (sbhid : SBhid.Idx → EReal)
  (sWout : SWout.Idx → EReal) (sbout : SBout.Idx → EReal)
  (tWin : SWin.Idx → EReal) (tbin : SBin.Idx → EReal) (tWhid : SWhid.Idx → EReal) (tbhid : SBhid.Idx → EReal)
  (tWout : SWout.Idx → EReal) (tbout : SBout.Idx → EReal)

/-- The clamped log-scale of row r, transformed column j. -/
def logScale (r : Fin 65536) (j : Fin 64) : EReal := clip (net z sWin sbin sWhid sbhid sWout sbout r j)

/-- The layer's first result. -/
def zOut : SZ.Idx → EReal := fun i =>
  if h : (i 1).val < 64 then z i
  else z i * Ideal.exp (logScale z sWin sbin sWhid sbhid sWout sbout (i 0) ⟨(i 1).val - 64, by have := idx2_lt1 i; omega⟩)
    + net z tWin tbin tWhid tbhid tWout tbout (i 0) ⟨(i 1).val - 64, by have := idx2_lt1 i; omega⟩

/-- The layer's second result: the row sums of the clamped log-scale. -/
def logDet : SLd.Idx → EReal := fun i => ∑ j : Fin 64, logScale z sWin sbin sWhid sbhid sWout sbout (i 0) j

theorem zOut_left (r : Fin 65536) (k : Fin 64) :
    zOut z sWin sbin sWhid sbhid sWout sbout tWin tbin tWhid tbhid tWout tbout (ix2 r (colL k)) = z (ix2 r (colL k)) := by
  unfold zOut
  exact dif_pos k.isLt

theorem zOut_right (r : Fin 65536) (k : Fin 64) :
    zOut z sWin sbin sWhid sbhid sWout sbout tWin tbin tWhid tbhid tWout tbout (ix2 r (colR k))
      = z (ix2 r (colR k)) * Ideal.exp (logScale z sWin sbin sWhid sbhid sWout sbout r k)
        + net z tWin tbin tWhid tbhid tWout tbout r k := by
  unfold zOut
  have hn : ¬ ((ix2 r (colR k) : SZ.Idx) 1).val < 64 := by show ¬ (64 + k.val < 64); omega
  rw [dif_neg hn]
  have e : (⟨((ix2 r (colR k) : SZ.Idx) 1).val - 64, by have := idx2_lt1 (ix2 r (colR k) : SZ.Idx); omega⟩ : Fin 64) = k :=
    Fin.ext (by show 64 + k.val - 64 = k.val; omega)
  rw [e]

/-- A function on the result's indices that reads as the layer does on both halves of every row IS the first result. -/
theorem eq_zOut (X : SZ.Idx → EReal)
    (hL : ∀ (r : Fin 65536) (k : Fin 64), X (ix2 r (colL k)) = z (ix2 r (colL k)))
    (hR : ∀ (r : Fin 65536) (k : Fin 64), X (ix2 r (colR k))
      = z (ix2 r (colR k)) * Ideal.exp (logScale z sWin sbin sWhid sbhid sWout sbout r k)
        + net z tWin tbin tWhid tbhid tWout tbout r k) :
    X = zOut z sWin sbin sWhid sbhid sWout sbout tWin tbin tWhid tbhid tWout tbout := by
  funext i
  obtain ⟨r, c, rfl⟩ : ∃ (r : Fin 65536) (c : Fin 128), i = ix2 r c := ⟨i 0, i 1, eq_ix2 i⟩
  by_cases hc : c.val < 64
  · have e : c = colL ⟨c.val, hc⟩ := Fin.ext rfl
    rw [e, hL, zOut_left]
  · have e : c = colR ⟨c.val - 64, by have := c.isLt; omega⟩ := Fin.ext (by show c.val = 64 + (c.val - 64); omega)
    rw [e, hR, zOut_right]

end

end Cert.Coupling

end
-- ==== Proof.RefValue.lean ====
/-
  The reference program read index by index: each of its stages is the corresponding quantity of the coupling layer's
  specification, layer by layer, so its two results are the specification's zOut and logDet.
-/
import proofs.«146900_j77953656423056_2_alg».proof.Proof.Gen.ReferenceIdeal.Read
import proofs.«146900_j77953656423056_2_alg».proof.Proof.Spec
import Idealize.ShloMosaic.Lib.ValueLayout
import Idealize.ShloMosaic.Lib.Pipeline.Value
import Idealize.ShloMosaic.PureOps.Ideal.Laws

noncomputable section

namespace Cert.Coupling.RefSide

open Idealize.ShloMosaic Idealize.ShloMosaic.ValueIdx Cert.ReferenceIdeal Cert.ReferenceIdeal.Read Cert.Coupling

/-! The types of the layer's arguments at the ideal instance: functions from the array's indices to the extended reals
    (z; then, for each perceptron, input weight and bias, stacked hidden weights and biases, output weight and bias). -/
abbrev TZ := (⟨S65536x128, .f32⟩ : BufTy).Contents (Elt Ideal)
abbrev TWin := (⟨S512x64, .f32⟩ : BufTy).Contents (Elt Ideal)
abbrev TBin := (⟨S512, .f32⟩ : BufTy).Contents (Elt Ideal)
abbrev TWhid := (⟨S2x512x512, .f32⟩ : BufTy).Contents (Elt Ideal)
abbrev TBhid := (⟨S2x512, .f32⟩ : BufTy).Contents (Elt Ideal)
abbrev TWout := (⟨S64x512, .f32⟩ : BufTy).Contents (Elt Ideal)
abbrev TBout := (⟨S64, .f32⟩ : BufTy).Contents (Elt Ideal)

/-- Two rank-1 indices with equal coordinates are equal. -/
theorem idx1_ext {n0 : Nat} (i j : (⟨1, ![n0]⟩ : Shape).Idx) (h0 : (i 0).val = (j 0).val) : i = j :=
  funext fun a => Fin.ext (by match a with | ⟨0, _⟩ => exact h0)

/-- Two rank-2 indices with equal coordinates are equal. -/
theorem idx2_ext {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- Two rank-3 indices with equal coordinates are equal. -/
theorem idx3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- The first layer of s: unit j on row r. -/
theorem s_layer0 (x0 : TZ) (x1 : TWin) (x2 : TBin) (r : Fin 65536) (j : Fin 512) :
    val_main_v7 (F := Ideal) x0 x1 x2 (ix2 r j)
      = relu (dense (fun k => x0 (ix2 r (colL k))) (fun k => x1 (ix2 j k)) (x2 (ix1 j))) := by
  simp only [val_main_v7_apply, val_main_v6_apply, val_main_v3_apply, val_main_v5_apply, val_main_v4_apply,
    val_main_v0_apply, val_main_v2_apply, val_main_call0_v0_apply, val_main_call0_cst_apply]
  have e0 : ∀ k : Fin 64, idx_main_v0 (lidx_main_v3 (ix2 r j) k) = ix2 r (colL k) := fun k => idx2_ext _ _ rfl rfl
  have e2 : ∀ k : Fin 64, idx_main_v2 (ridx_main_v3 (ix2 r j) k) = ix2 j k := fun k => idx2_ext _ _ rfl rfl
  have e4 : idx_main_v4 (idx_main_v5 (ix2 r j)) = ix1 j := idx1_ext _ _ rfl
  simp only [e0, e2, e4]
  rfl

/-- The second layer of s from the first. -/
theorem s_layer1 (x0 : TZ) (x1 : TWin) (x2 : TBin) (x3 : TWhid) (x4 : TBhid) (r : Fin 65536) (j : Fin 512) :
    val_main_v17 (F := Ideal) x0 x1 x2 x3 x4 (ix2 r j)
      = relu (dense (fun k => val_main_v7 (F := Ideal) x0 x1 x2 (ix2 r k)) (fun k => x3 (ix3 (0 : Fin 2) j k))
          (x4 (ix2 (0 : Fin 2) j))) := by
  simp only [val_main_v17_apply, val_main_v16_apply, val_main_v11_apply, val_main_v15_apply, val_main_v14_apply,
    val_main_v13_apply, val_main_v12_apply, val_main_v10_apply, val_main_v9_apply, val_main_v8_apply,
    val_main_call1_v0_apply, val_main_call1_cst_apply]
  have el : ∀ k : Fin 512, lidx_main_v11 (ix2 r j) k = ix2 r k := fun k => idx2_ext _ _ rfl rfl
  have ew : ∀ k : Fin 512, idx_main_v8 (idx_main_v9 (idx_main_v10 (ridx_main_v11 (ix2 r j) k))) = ix3 (0 : Fin 2) j k :=
    fun k => idx3_ext _ _ rfl
      (by have := j.isLt; have := k.isLt; show (j.val * 512 + k.val) / 512 % 512 = j.val; omega)
      (by have := j.isLt; have := k.isLt; show (j.val * 512 + k.val) % 512 = k.val; omega)
  have eb : idx_main_v12 (idx_main_v13 (idx_main_v14 (idx_main_v15 (ix2 r j)))) = ix2 (0 : Fin 2) j :=
    idx2_ext _ _ rfl (by have := j.isLt; show j.val % 512 = j.val; omega)
  simp only [el, ew, eb]
  rfl

/-- The third layer of s from the second. -/
theorem s_layer2 (x0 : TZ) (x1 : TWin) (x2 : TBin) (x3 : TWhid) (x4 : TBhid) (r : Fin 65536) (j : Fin 512) :
    val_main_v27 (F := Ideal) x0 x1 x2 x3 x4 (ix2 r j)
      = relu (dense (fun k => val_main_v17 (F := Ideal) x0 x1 x2 x3 x4 (ix2 r k)) (fun k => x3 (ix3 (1 : Fin 2) j k))
          (x4 (ix2 (1 : Fin 2) j))) := by
  simp only [val_main_v27_apply, val_main_v26_apply, val_main_v21_apply, val_main_v25_apply, val_main_v24_apply,
    val_main_v23_apply, val_main_v22_apply, val_main_v20_apply, val_main_v19_apply, val_main_v18_apply,
    val_main_call2_v0_apply, val_main_call2_cst_apply]
  have el : ∀ k : Fin 512, lidx_main_v21 (ix2 r j) k = ix2 r k := fun k => idx2_ext _ _ rfl rfl
  have ew : ∀ k : Fin 512, idx_main_v18 (idx_main_v19 (idx_main_v20 (ridx_main_v21 (ix2 r j) k))) = ix3 (1 : Fin 2) j k :=
    fun k => idx3_ext _ _ rfl
      (by have := j.isLt; have := k.isLt; show (j.val * 512 + k.val) / 512 % 512 = j.val; omega)
      (by have := j.isLt; have := k.isLt; show (j.val * 512 + k.val) % 512 = k.val; omega)
  have eb : idx_main_v22 (idx_main_v23 (idx_main_v24 (idx_main_v25 (ix2 r j)))) = ix2 (1 : Fin 2) j :=
    idx2_ext _ _ rfl (by have := j.isLt; show j.val % 512 = j.val; omega)
  simp only [el, ew, eb]
  rfl

/-- The output layer of s from the third. -/
theorem s_head (x0 : TZ) (x1 : TWin) (x2 : TBin) (x3 : TWhid) (x4 : TBhid) (x5 : TWout) (x6 : TBout) (r : Fin 65536) (j : Fin 64) :
    val_main_v32 (F := Ideal) x0 x1 x2 x3 x4 x5 x6 (ix2 r j)
      = dense (fun k => val_main_v27 (F := Ideal) x0 x1 x2 x3 x4 (ix2 r k)) (fun k => x5 (ix2 j k)) (x6 (ix1 j)) := by
  simp only [val_main_v32_apply, val_main_v29_apply, val_main_v31_apply, val_main_v30_apply, val_main_v28_apply]
  have el : ∀ k : Fin 512, lidx_main_v29 (ix2 r j) k = ix2 r k := fun k => idx2_ext _ _ rfl rfl
  have ew : ∀ k : Fin 512, idx_main_v28 (ridx_main_v29 (ix2 r j) k) = ix2 j k := fun k => idx2_ext _ _ rfl rfl
  have eb : idx_main_v30 (idx_main_v31 (ix2 r j)) = ix1 j := idx1_ext _ _ rfl
  simp only [el, ew, eb]
  rfl

/-- The first layer of t: unit j on row r. -/
theorem t_layer0 (x0 : TZ) (x7 : TWin) (x8 : TBin) (r : Fin 65536) (j : Fin 512) :
    val_main_v39 (F := Ideal) x0 x7 x8 (ix2 r j)
      = relu (dense (fun k => x0 (ix2 r (colL k))) (fun k => x7 (ix2 j k)) (x8 (ix1 j))) := by
  simp only [val_main_v39_apply, val_main_v38_apply, val_main_v35_apply, val_main_v37_apply, val_main_v36_apply,
    val_main_v0_apply, val_main_v34_apply, val_main_call4_v0_apply, val_main_call4_cst_apply]
  have e0 : ∀ k : Fin 64, idx_main_v0 (lidx_main_v35 (ix2 r j) k) = ix2 r (colL k) := fun k => idx2_ext _ _ rfl rfl
  have e2 : ∀ k : Fin 64, idx_main_v34 (ridx_main_v35 (ix2 r j) k) = ix2 j k := fun k => idx2_ext _ _ rfl rfl
  have e4 : idx_main_v36 (idx_main_v37 (ix2 r j)) = ix1 j := idx1_ext _ _ rfl
  simp only [e0, e2, e4]
  rfl

/-- The second layer of t from the first. -/
theorem t_layer1 (x0 : TZ) (x7 : TWin) (x8 : TBin) (x9 : TWhid) (x10 : TBhid) (r : Fin 65536) (j : Fin 512) :
    val_main_v49 (F := Ideal) x0 x7 x8 x9 x10 (ix2 r j)
      = relu (dense (fun k => val_main_v39 (F := Ideal) x0 x7 x8 (ix2 r k)) (fun k => x9 (ix3 (0 : Fin 2) j k))
          (x10 (ix2 (0 : Fin 2) j))) := by
  simp only [val_main_v49_apply, val_main_v48_apply, val_main_v43_apply, val_main_v47_apply, val_main_v46_apply,
    val_main_v45_apply, val_main_v44_apply, val_main_v42_apply, val_main_v41_apply, val_main_v40_apply,
    val_main_call5_v0_apply, val_main_call5_cst_apply]
  have el : ∀ k : Fin 512, lidx_main_v43 (ix2 r j) k = ix2 r k := fun k => idx2_ext _ _ rfl rfl
  have ew : ∀ k : Fin 512, idx_main_v40 (idx_main_v41 (idx_main_v42 (ridx_main_v43 (ix2 r j) k))) = ix3 (0 : Fin 2) j k :=
    fun k => idx3_ext _ _ rfl
      (by have := j.isLt; have := k.isLt; show (j.val * 512 + k.val) / 512 % 512 = j.val; omega)
      (by have := j.isLt; have := k.isLt; show (j.val * 512 + k.val) % 512 = k.val; omega)
  have eb : idx_main_v44 (idx_main_v45 (idx_main_v46 (idx_main_v47 (ix2 r j)))) = ix2 (0 : Fin 2) j :=
    idx2_ext _ _ rfl (by have := j.isLt; show j.val % 512 = j.val; omega)
  simp only [el, ew, eb]
  rfl

/-- The third layer of t from the second. -/
theorem t_layer2 (x0 : TZ) (x7 : TWin) (x8 : TBin) (x9 : TWhid) (x10 : TBhid) (r : Fin 65536) (j : Fin 512) :
    val_main_v59 (F := Ideal) x0 x7 x8 x9 x10 (ix2 r j)
      = relu (dense (fun k => val_main_v49 (F := Ideal) x0 x7 x8 x9 x10 (ix2 r k)) (fun k => x9 (ix3 (1 : Fin 2) j k))
          (x10 (ix2 (1 : Fin 2) j))) := by
  simp only [val_main_v59_apply, val_main_v58_apply, val_main_v53_apply, val_main_v57_apply, val_main_v56_apply,
    val_main_v55_apply, val_main_v54_apply, val_main_v52_apply, val_main_v51_apply, val_main_v50_apply,
    val_main_call6_v0_apply, val_main_call6_cst_apply]
  have el : ∀ k : Fin 512, lidx_main_v53 (ix2 r j) k = ix2 r k := fun k => idx2_ext _ _ rfl rfl
  have ew : ∀ k : Fin 512, idx_main_v50 (idx_main_v51 (idx_main_v52 (ridx_main_v53 (ix2 r j) k))) = ix3 (1 : Fin 2) j k :=
    fun k => idx3_ext _ _ rfl
      (by have := j.isLt; have := k.isLt; show (j.val * 512 + k.val) / 512 % 512 = j.val; omega)
      (by have := j.isLt; have := k.isLt; show (j.val * 512 + k.val) % 512 = k.val; omega)
  have eb : idx_main_v54 (idx_main_v55 (idx_main_v56 (idx_main_v57 (ix2 r j)))) = ix2 (1 : Fin 2) j :=
    idx2_ext _ _ rfl (by have := j.isLt; show j.val % 512 = j.val; omega)
  simp only [el, ew, eb]
  rfl

/-- The output layer of t from the third. -/
theorem t_head (x0 : TZ) (x7 : TWin) (x8 : TBin) (x9 : TWhid) (x10 : TBhid) (x11 : TWout) (x12 : TBout) (r : Fin 65536) (j : Fin 64) :
    val_main_v64 (F := Ideal) x0 x7 x8 x9 x10 x11 x12 (ix2 r j)
      = dense (fun k => val_main_v59 (F := Ideal) x0 x7 x8 x9 x10 (ix2 r k)) (fun k => x11 (ix2 j k)) (x12 (ix1 j)) := by
  simp only [val_main_v64_apply, val_main_v61_apply, val_main_v63_apply, val_main_v62_apply, val_main_v60_apply]
  have el : ∀ k : Fin 512, lidx_main_v61 (ix2 r j) k = ix2 r k := fun k => idx2_ext _ _ rfl rfl
  have ew : ∀ k : Fin 512, idx_main_v60 (ridx_main_v61 (ix2 r j) k) = ix2 j k := fun k => idx2_ext _ _ rfl rfl
  have eb : idx_main_v62 (idx_main_v63 (ix2 r j)) = ix1 j := idx1_ext _ _ rfl
  simp only [el, ew, eb]
  rfl

/-- The four layers of s chained: the reference's s(z1) is the specification's perceptron. -/
theorem s_net (x0 : TZ) (x1 : TWin) (x2 : TBin) (x3 : TWhid) (x4 : TBhid) (x5 : TWout) (x6 : TBout) (r : Fin 65536) (j : Fin 64) :
    val_main_v32 (F := Ideal) x0 x1 x2 x3 x4 x5 x6 (ix2 r j) = net x0 x1 x2 x3 x4 x5 x6 r j := by
  rw [s_head]
  simp only [s_layer2, s_layer1, s_layer0]
  rfl

/-- The four layers of t chained. -/
theorem t_net (x0 : TZ) (x7 : TWin) (x8 : TBin) (x9 : TWhid) (x10 : TBhid) (x11 : TWout) (x12 : TBout) (r : Fin 65536) (j : Fin 64) :
    val_main_v64 (F := Ideal) x0 x7 x8 x9 x10 x11 x12 (ix2 r j) = net x0 x7 x8 x9 x10 x11 x12 r j := by
  rw [t_head]
  simp only [t_layer2, t_layer1, t_layer0]
  rfl

/-- The clamp of s(z1) to [-2, 2] is the specification's log-scale. -/
theorem s_logScale (x0 : TZ) (x1 : TWin) (x2 : TBin) (x3 : TWhid) (x4 : TBhid) (x5 : TWout) (x6 : TBout) (r : Fin 65536) (j : Fin 64) :
    val_main_v33 (F := Ideal) x0 x1 x2 x3 x4 x5 x6 (ix2 r j) = logScale x0 x1 x2 x3 x4 x5 x6 r j := by
  simp only [val_main_v33_apply, val_main_call3_v4_apply, val_main_call3_v3_apply, val_main_cst_0_apply,
    val_main_call3_v2_apply, val_main_call3_v1_apply, val_main_call3_v0_apply, val_main_cst_apply, s_net]
  rfl

/-- The transformed half: z2 * exp(log_s) + t(z1), at row r and transformed column k. -/
theorem right_half (x0 : TZ) (x1 : TWin) (x2 : TBin) (x3 : TWhid) (x4 : TBhid) (x5 : TWout) (x6 : TBout) (x7 : TWin) (x8 : TBin) (x9 : TWhid) (x10 : TBhid) (x11 : TWout) (x12 : TBout) (r : Fin 65536) (k : Fin 64) :
    val_main_v67 (F := Ideal) x0 x1 x2 x3 x4 x5 x6 x7 x8 x9 x10 x11 x12 (ix2 r k)
      = x0 (ix2 r (colR k)) * Ideal.exp (logScale x0 x1 x2 x3 x4 x5 x6 r k) + net x0 x7 x8 x9 x10 x11 x12 r k := by
  simp only [val_main_v67_apply, val_main_v66_apply, val_main_v65_apply, val_main_v1_apply, s_logScale, t_net]
  have e1 : idx_main_v1 (ix2 r k) = ix2 r (colR k) := idx2_ext _ _ rfl rfl
  rw [e1]
  rfl

/-- The reference's first result is the specification's zOut: the concatenation reads the passthrough half on columns
    below 64 and the transformed half on the others. -/
theorem ref_zOut (x0 : TZ) (x1 : TWin) (x2 : TBin) (x3 : TWhid) (x4 : TBhid) (x5 : TWout) (x6 : TBout) (x7 : TWin) (x8 : TBin) (x9 : TWhid) (x10 : TBhid) (x11 : TWout) (x12 : TBout) :
    val_main_v68 (F := Ideal) x0 x1 x2 x3 x4 x5 x6 x7 x8 x9 x10 x11 x12
      = zOut x0 x1 x2 x3 x4 x5 x6 x7 x8 x9 x10 x11 x12 := by
  apply eq_zOut
  · intro r k
    unfold val_main_v68
    rw [concatenate_pair_apply_left (t := S65536x128) (s₁ := S65536x64) (s₂ := S65536x64) (1 : Fin S65536x128.rank)
      _ _ _ (ix2 r (colL k)) rfl (ix2 r k) (fun b => match b with | ⟨0, _⟩ => rfl | ⟨1, _⟩ => rfl)]
    rw [val_main_v0_apply]
    exact congrArg x0 (idx2_ext _ _ rfl rfl)
  · intro r k
    unfold val_main_v68
    rw [concatenate_pair_apply_right (t := S65536x128) (s₁ := S65536x64) (s₂ := S65536x64) (1 : Fin S65536x128.rank)
      _ _ _ (ix2 r (colR k)) rfl rfl (ix2 r k)
      (fun b => match b with | ⟨0, _⟩ => fun _ => rfl | ⟨1, _⟩ => fun h => absurd rfl h)
      (by show k.val + 64 = 64 + k.val; omega)]
    exact right_half x0 x1 x2 x3 x4 x5 x6 x7 x8 x9 x10 x11 x12 r k

/-- The reference's second result is the specification's logDet: the row sum of the log-scale from the initial value 0. -/
theorem ref_logDet (x0 : TZ) (x1 : TWin) (x2 : TBin) (x3 : TWhid) (x4 : TBhid) (x5 : TWout) (x6 : TBout) :
    val_main_v69 (F := Ideal) x0 x1 x2 x3 x4 x5 x6 = logDet x0 x1 x2 x3 x4 x5 x6 := by
  funext i
  obtain ⟨r, rfl⟩ : ∃ r : Fin 65536, i = ix1 r := ⟨i 0, eq_ix1 i⟩
  rw [val_main_v69_apply, val_main_cst_1_apply]
  have e : ∀ k : Fin 64, idx_main_v69 (ix1 r) k = ix2 r k := fun k => idx2_ext _ _ rfl rfl
  simp only [e, s_logScale]
  rw [Ideal.ofBits_def, Ideal.ofBits_zero_f32, zero_add]
  rfl

end Cert.Coupling.RefSide

end
-- ==== Proof.KernelDots.lean ====
/-
  The kernel's three matrix products read at an entry.  Each is a product of a [2048, K] block of activations with a
  [K, N] weight matrix into a zero accumulator, so entry (p, q) is the sum over k of L[p, k] · R[k, q].
-/
import proofs.«146900_j77953656423056_2_alg».proof.Proof.Gen.KernelIdeal
import Idealize.ShloMosaic.PureOps.Ideal.Laws
import Idealize.ShloMosaic.Lib.ValueIdx

noncomputable section

namespace Cert.Coupling.KernelSide

open Idealize.ShloMosaic Idealize.ShloMosaic.ValueIdx Cert.KernelIdeal

theorem lhs_in_0 (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
theorem lhs_in_1 (i : S2048x1024.Idx) (q : dot_S2048x64_S64x1024_S2048x1024_1_0_0_1_n_n.contr.Idx) :
    (dot_S2048x64_S64x1024_S2048x1024_1_0_0_1_n_n.lhsIdx i q 1).val = (q ⟨0, by decide⟩).val :=
  dot_S2048x64_S64x1024_S2048x1024_1_0_0_1_n_n.lhsIdx_val_of_single rfl i q
theorem rhs_in_0 (i : S2048x1024.Idx) (q : dot_S2048x64_S64x1024_S2048x1024_1_0_0_1_n_n.contr.Idx) :
    (dot_S2048x64_S64x1024_S2048x1024_1_0_0_1_n_n.rhsIdx i q 0).val = (q ⟨0, by decide⟩).val :=
  dot_S2048x64_S64x1024_S2048x1024_1_0_0_1_n_n.rhsIdx_val_of_single rfl i q
theorem rhs_in_1 (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- Entry (p, q) of the product into the zero accumulator: the sum over the contracted index. -/
theorem matmul_in_apply (L : FVec Ideal S2048x64 .bf16) (R : FVec Ideal S64x1024 .bf16) (p : Fin 2048) (q : Fin 1024) :
    matmul dot_S2048x64_S64x1024_S2048x1024_1_0_0_1_n_n none L R (constant S2048x1024 .f32 0x00000000#32) (ix2 p q)
      = ∑ k : Fin 64, L (ix2 p k) * R (ix2 k q) := by
  simp only [matmul]
  rw [Ideal.matmul_constant_zero_apply, ← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 p q) ((contrEquiv1 dot_S2048x64_S64x1024_S2048x1024_1_0_0_1_n_n 64 rfl rfl).symm k) = ix2 p k := funext fun a => Fin.ext (by
    match a with
    | ⟨0, _⟩ => exact lhs_in_0 _ _
    | ⟨1, _⟩ => exact (lhs_in_1 _ _).trans hk)
  have er : dot_S2048x64_S64x1024_S2048x1024_1_0_0_1_n_n.rhsIdx (ix2 p q) ((contrEquiv1 dot_S2048x64_S64x1024_S2048x1024_1_0_0_1_n_n 64 rfl rfl).symm k) = ix2 k q := funext fun a => Fin.ext (by
    match a with
    | ⟨0, _⟩ => exact (rhs_in_0 _ _).trans hk
    | ⟨1, _⟩ => exact rhs_in_1 _ _)
  rw [el, er]

theorem lhs_hid_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_hid_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_hid_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_hid_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (p, q) of the product into the zero accumulator: the sum over the contracted index. -/
theorem matmul_hid_apply (L : FVec Ideal S2048x512 .bf16) (R : FVec Ideal S512x512 .bf16) (p : Fin 2048) (q : Fin 512) :
    matmul dot_S2048x512_S512x512_S2048x512_1_0_0_1_n_n none L R (constant S2048x512 .f32 0x00000000#32) (ix2 p q)
      = ∑ k : Fin 512, L (ix2 p k) * R (ix2 k q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun a => Fin.ext (by
    match a with
    | ⟨0, _⟩ => exact lhs_hid_0 _ _
    | ⟨1, _⟩ => exact (lhs_hid_1 _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun a => Fin.ext (by
    match a with
    | ⟨0, _⟩ => exact (rhs_hid_0 _ _).trans hk
    | ⟨1, _⟩ => exact rhs_hid_1 _ _)
  rw [el, er]

theorem lhs_out_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem lhs_out_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_out_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_out_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- Entry (p, q) of the product into the zero accumulator: the sum over the contracted index. -/
theorem matmul_out_apply (L : FVec Ideal S2048x512 .bf16) (R : FVec Ideal S512x64 .bf16) (p : Fin 2048) (q : Fin 64) :
    matmul dot_S2048x512_S512x64_S2048x64_1_0_0_1_n_n none L R (constant S2048x64 .f32 0x00000000#32) (ix2 p q)
      = ∑ k : Fin 512, L (ix2 p k) * R (ix2 k q) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 p q) ((contrEquiv1 dot_S2048x512_S512x64_S2048x64_1_0_0_1_n_n 512 rfl rfl).symm k) = ix2 p k := funext fun a => Fin.ext (by
    match a with
    | ⟨0, _⟩ => exact lhs_out_0 _ _
    | ⟨1, _⟩ => exact (lhs_out_1 _ _).trans hk)
  have er : dot_S2048x512_S512x64_S2048x64_1_0_0_1_n_n.rhsIdx (ix2 p q) ((contrEquiv1 dot_S2048x512_S512x64_S2048x64_1_0_0_1_n_n 512 rfl rfl).symm k) = ix2 k q := funext fun a => Fin.ext (by
    match a with
    | ⟨0, _⟩ => exact (rhs_out_0 _ _).trans hk
    | ⟨1, _⟩ => exact rhs_out_1 _ _)
  rw [el, er]

end Cert.Coupling.KernelSide

end
-- ==== Proof.LibColumnCast.lean ====
/-
  A vector and a one-column matrix hold the same entries: the shape casts between [a] and [a, 1], read at an index.
  (The casts a row sum kept as a column meets: the sum is taken as a vector, stored as a column, and read back as a vector.)
-/
import Idealize.ShloMosaic.Lib.ValueLayout
import Idealize.ShloMosaic.Lib.Pipeline.Value

namespace Cert.LibColumnCast

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.KernelLayers.lean ====
/-
  The kernel body's layers read at an entry of the block: each is a matrix product into a zero accumulator, a bias row
  broadcast over the block's rows, and (except the last) a ReLU.  A change of float format is the identity on the
  extended reals, a cast between equal shapes moves nothing, and a cast that adds or drops a unit axis keeps the entry.
-/
import proofs.«146900_j77953656423056_2_alg».proof.Proof.Gen.KernelIdeal.Skeleton
import proofs.«146900_j77953656423056_2_alg».proof.Proof.KernelDots
import proofs.«146900_j77953656423056_2_alg».proof.Proof.Spec
import proofs.«146900_j77953656423056_2_alg».proof.Proof.LibColumnCast
import Idealize.ShloMosaic.Lib.ValueLayout
import Idealize.ShloMosaic.Lib.Pipeline.Value

noncomputable section

namespace Cert.Coupling.KernelSide

open Idealize.ShloMosaic Idealize.ShloMosaic.ValueIdx Cert.KernelIdeal Cert.KernelIdeal.Gen Cert.Coupling Cert.LibColumnCast

/-- Unit j of the s perceptron's first layer, and of the t perceptron's, among the fused layer's 1024 units. -/
abbrev unitS (j : Fin 512) : Fin 1024 := ⟨j.val, by omega⟩
abbrev unitT (j : Fin 512) : Fin 1024 := ⟨512 + j.val, by omega⟩

/-- The passthrough half of the block. -/
theorem pay3_apply (v0 : Vec Ideal S2048x128 .f32) (p : Fin 2048) (k : Fin 64) :
    k0_pay3 (F := Ideal) v0 (ix2 p k) = v0 (ix2 p (colL k)) :=
  slice2_axis1_apply 0 v0 slices_S2048x128_o0_0_S2048x64 p k (colL k) (Nat.zero_add _).symm

/-- The transformed half of the block. -/
theorem pay4_apply (v0 : Vec Ideal S2048x128 .f32) (p : Fin 2048) (k : Fin 64) :
    k0_pay4 (F := Ideal) v0 (ix2 p k) = v0 (ix2 p (colR k)) :=
  slice2_axis1_apply 64 v0 slices_S2048x128_o0_64_S2048x64 p k (colR k) rfl

/-- The fused first layer at row p, unit q of the 1024 (the s units then the t units). -/
theorem pay5_apply (v0 : Vec Ideal S2048x128 .f32) (v4 : Vec Ideal S64x1024 .bf16) (v7 : Vec Ideal S1024 .f32)
    (p : Fin 2048) (q : Fin 1024) :
    k0_pay5 (F := Ideal) v0 v4 v7 (ix2 p q)
      = relu (dense (fun k => v0 (ix2 p (colL k))) (fun k => v4 (ix2 k q)) (v7 (ix1 q))) := by
  unfold k0_pay5
  rw [truncf_apply, maximumf_apply, addf_apply, broadcast_apply, matmul_in_apply, broadcastTo_1b_ab_apply,
    shapeCast_a_1a_apply, shapeCast_self]
  simp only [truncf_apply, pay3_apply, shapeCast_self]
  rfl

/-- The s units of the fused layer, and the t units. -/
theorem sliceS_apply (X : FVec Ideal S2048x1024 .bf16) (p : Fin 2048) (j : Fin 512) :
    extractStridedSlice S2048x512 ![0, 0] X slices_S2048x1024_o0_0_S2048x512 (ix2 p j) = X (ix2 p (unitS j)) :=
  slice2_axis1_apply 0 X slices_S2048x1024_o0_0_S2048x512 p j (unitS j) (Nat.zero_add _).symm

theorem pay6_apply (v0 : Vec Ideal S2048x128 .f32) (v4 : Vec Ideal S64x1024 .bf16) (v7 : Vec Ideal S1024 .f32)
    (p : Fin 2048) (j : Fin 512) :
    k0_pay6 (F := Ideal) v0 v4 v7 (ix2 p j) = k0_pay5 (F := Ideal) v0 v4 v7 (ix2 p (unitT j)) :=
  slice2_axis1_apply 512 (k0_pay5 (F := Ideal) v0 v4 v7) slices_S2048x1024_o0_512_S2048x512 p j (unitT j) rfl

/-- A hidden layer at row p, unit q: the weights arrive as W[0, input, unit], the bias as B[0, unit]. -/
theorem hid_apply (H : FVec Ideal S2048x512 .bf16) (W : FVec Ideal S1x512x512 .bf16) (B : FVec Ideal S1x512 .f32)
    (p : Fin 2048) (q : Fin 512) :
    maximumf (addf (matmul dot_S2048x512_S512x512_S2048x512_1_0_0_1_n_n none H
          (shapeCast S512x512 W shapeCasts_S1x512x512_S512x512) (constant (F := Ideal) S2048x512 .f32 0x00000000#32))
        (broadcastTo S2048x512 (shapeCast S1x512 (shapeCast S512 B shapeCasts_S1x512_S512) shapeCasts_S512_S1x512)
          broadcasts_S1x512_S2048x512))
      (broadcast S2048x512 (FloatOps.ofBits (F := Ideal) .f32 0x00000000#32)) (ix2 p q)
      = relu (dense (fun k => H (ix2 p k)) (fun k => W (ix3 (0 : Fin 1) k q)) (B (ix2 (0 : Fin 1) q))) := by
  rw [maximumf_apply, addf_apply, broadcast_apply, matmul_hid_apply, broadcastTo_1b_ab_apply, shapeCast_a_1a_apply,
    shapeCast_1a_a_apply]
  simp only [shapeCast_1ab_ab_apply]
  rfl

/-- The s perceptron's two hidden layers on top of the fused layer's s units. -/
theorem pay7_apply (v0 : Vec Ideal S2048x128 .f32) (v4 : Vec Ideal S64x1024 .bf16) (v7 : Vec Ideal S1024 .f32)
    (v17 : Vec Ideal S1x512x512 .bf16) (v19 : Vec Ideal S1x512 .f32) (v28 : Vec Ideal S1x512x512 .bf16)
    (v30 : Vec Ideal S1x512 .f32) (p : Fin 2048) (q : Fin 512) :
    k0_pay7 (F := Ideal) v0 v4 v7 v17 v19 v28 v30 (ix2 p q)
      = relu (dense (fun k1 => relu (dense (fun k0 => k0_pay5 (F := Ideal) v0 v4 v7 (ix2 p (unitS k0)))
            (fun k0 => v17 (ix3 (0 : Fin 1) k0 k1)) (v19 (ix2 (0 : Fin 1) k1))))
          (fun k1 => v28 (ix3 (0 : Fin 1) k1 q)) (v30 (ix2 (0 : Fin 1) q))) := by
  unfold k0_pay7
  rw [hid_apply]
  simp only [truncf_apply, hid_apply, sliceS_apply]

/-- The s head and its clamp, on any last hidden activations. -/
theorem pay8_apply (v37 : FVec Ideal S2048x512 .f32) (v39 : Vec Ideal S512x64 .bf16) (v42 : Vec Ideal S64 .f32)
    (p : Fin 2048) (q : Fin 64) :
    k0_pay8 (F := Ideal) v37 v39 v42 (ix2 p q)
      = clip (dense (fun k => v37 (ix2 p k)) (fun k => v39 (ix2 k q)) (v42 (ix1 q))) := by
  unfold k0_pay8
  rw [minimumf_apply, maximumf_apply, broadcast_apply, broadcast_apply, addf_apply, matmul_out_apply,
    broadcastTo_1b_ab_apply, shapeCast_a_1a_apply]
  simp only [truncf_apply, shapeCast_self]
  rfl

/-- The t perceptron above the fused layer's t units, up to the head's product (its bias is added later). -/
theorem pay9_apply (v16 : FVec Ideal S2048x512 .bf16) (v50 : Vec Ideal S1x512x512 .bf16) (v52 : Vec Ideal S1x512 .f32)
    (v61 : Vec Ideal S1x512x512 .bf16) (v63 : Vec Ideal S1x512 .f32) (v72 : Vec Ideal S512x64 .bf16)
    (p : Fin 2048) (q : Fin 64) :
    k0_pay9 (F := Ideal) v16 v50 v52 v61 v63 v72 (ix2 p q)
      = ∑ k2 : Fin 512, relu (dense (fun k1 => relu (dense (fun k0 => v16 (ix2 p k0))
            (fun k0 => v50 (ix3 (0 : Fin 1) k0 k1)) (v52 (ix2 (0 : Fin 1) k1))))
          (fun k1 => v61 (ix3 (0 : Fin 1) k1 k2)) (v63 (ix2 (0 : Fin 1) k2))) * v72 (ix2 k2 q) := by
  unfold k0_pay9
  rw [matmul_out_apply]
  simp only [truncf_apply, hid_apply, shapeCast_self]

/-- The sum of a row of the block over its 64 columns. -/
theorem rowSum_apply (v49 : FVec Ideal S2048x64 .f32) (p : Fin 2048) :
    multiReduction .add [1] S2048 v49 0x00000000#32 reduces_S2048x64_S2048 (.inl rfl) rfl (ix1 p)
      = ∑ j : Fin 64, v49 (ix2 p j) := by
  refine (Ideal.multiReduction_add_single v49 0x00000000#32 reduces_S2048x64_S2048 (.inl rfl) rfl (ix1 p)).trans ?_
  refine Finset.sum_congr rfl fun k _ => congrArg v49 (funext fun a => Fin.ext ?_)
  match a with
  | ⟨0, _⟩ => rfl
  | ⟨1, _⟩ => rfl

/-- The second result's block: the row sums, as a column. -/
theorem pay2_apply (v49 : FVec Ideal S2048x64 .f32) (p : Fin 2048) (u : Fin 1) :
    k0_pay2 (F := Ideal) v49 (ix2 p u) = ∑ j : Fin 64, v49 (ix2 p j) := by
  unfold k0_pay2
  rw [shapeCast_a_a1_apply, rowSum_apply]

/-- The first result's block on the passthrough columns. -/
theorem pay1_left (v1 v2 v49 v74 : FVec Ideal S2048x64 .f32) (v75 : Vec Ideal S64 .f32) (p : Fin 2048) (k : Fin 64) :
    k0_pay1 (F := Ideal) v1 v2 v49 v74 v75 (ix2 p (colL k)) = v1 (ix2 p k) := by
  unfold k0_pay1
  exact concatenate_pair_apply_left 1 _ _ concatenates_S2048x64_S2048x64_S2048x128_d1 (ix2 p (colL k)) rfl (ix2 p k)
    (fun b => match b with | ⟨0, _⟩ => rfl | ⟨1, _⟩ => rfl)

/-- The first result's block on the transformed columns: scale by the exponential, add the shift's product and bias. -/
theorem pay1_right (v1 v2 v49 v74 : FVec Ideal S2048x64 .f32) (v75 : Vec Ideal S64 .f32) (p : Fin 2048) (k : Fin 64) :
    k0_pay1 (F := Ideal) v1 v2 v49 v74 v75 (ix2 p (colR k))
      = v2 (ix2 p k) * Ideal.exp (v49 (ix2 p k)) + (v74 (ix2 p k) + v75 (ix1 k)) := by
  unfold k0_pay1
  refine (concatenate_pair_apply_right 1 _ _ concatenates_S2048x64_S2048x64_S2048x128_d1 (ix2 p (colR k)) rfl rfl (ix2 p k)
    (fun b hb => match b with | ⟨0, _⟩ => rfl | ⟨1, _⟩ => absurd rfl hb)
    (by show k.val + 64 = 64 + k.val; omega)).trans ?_
  rw [addf_apply, mulf_apply, addf_apply, broadcastTo_1b_ab_apply, shapeCast_a_1a_apply]
  rfl

section Body
variable (v0 : Vec Ideal S2048x128 .f32) (v4 : Vec Ideal S64x1024 .bf16) (v7 : Vec Ideal S1024 .f32)
  (v17 : Vec Ideal S1x512x512 .bf16) (v19 : Vec Ideal S1x512 .f32) (v28 : Vec Ideal S1x512x512 .bf16) (v30 : Vec Ideal S1x512 .f32)
  (v39 : Vec Ideal S512x64 .bf16) (v42 : Vec Ideal S64 .f32)
  (v50 : Vec Ideal S1x512x512 .bf16) (v52 : Vec Ideal S1x512 .f32) (v61 : Vec Ideal S1x512x512 .bf16) (v63 : Vec Ideal S1x512 .f32)
  (v72 : Vec Ideal S512x64 .bf16) (v75 : Vec Ideal S64 .f32)

/-- The s perceptron of the block's row p from the loaded values: the weights arrive transposed (W[input, unit]). -/
def sNet (p : Fin 2048) (q : Fin 64) : EReal :=
  mlp (fun a b => v4 (ix2 b (unitS a))) (fun a => v7 (ix1 (unitS a)))
    (fun a b => v17 (ix3 (0 : Fin 1) b a)) (fun a => v19 (ix2 (0 : Fin 1) a))
    (fun a b => v28 (ix3 (0 : Fin 1) b a)) (fun a => v30 (ix2 (0 : Fin 1) a))
    (fun a b => v39 (ix2 b a)) (fun a => v42 (ix1 a)) (fun k => v0 (ix2 p (colL k))) q

/-- The t perceptron likewise, on the fused layer's t units. -/
def tNet (p : Fin 2048) (q : Fin 64) : EReal :=
  mlp (fun a b => v4 (ix2 b (unitT a))) (fun a => v7 (ix1 (unitT a)))
    (fun a b => v50 (ix3 (0 : Fin 1) b a)) (fun a => v52 (ix2 (0 : Fin 1) a))
    (fun a b => v61 (ix3 (0 : Fin 1) b a)) (fun a => v63 (ix2 (0 : Fin 1) a))
    (fun a b => v72 (ix2 b a)) (fun a => v75 (ix1 a)) (fun k => v0 (ix2 p (colL k))) q

theorem body_logScale (p : Fin 2048) (q : Fin 64) :
    k0_pay8 (F := Ideal) (k0_pay7 (F := Ideal) v0 v4 v7 v17 v19 v28 v30) v39 v42 (ix2 p q)
      = clip (sNet v0 v4 v7 v17 v19 v28 v30 v39 v42 p q) := by
  rw [pay8_apply]
  simp only [pay7_apply, pay5_apply]
  rfl

theorem body_shift (p : Fin 2048) (q : Fin 64) :
    k0_pay9 (F := Ideal) (k0_pay6 (F := Ideal) v0 v4 v7) v50 v52 v61 v63 v72 (ix2 p q) + v75 (ix1 q)
      = tNet v0 v4 v7 v50 v52 v61 v63 v72 v75 p q := by
  rw [pay9_apply]
  simp only [pay6_apply, pay5_apply]
  rfl

/-- The first result's block, passthrough columns. -/
theorem body_zOut_left (p : Fin 2048) (k : Fin 64) :
    k0_pay1 (F := Ideal) (k0_pay3 (F := Ideal) v0) (k0_pay4 (F := Ideal) v0)
        (k0_pay8 (F := Ideal) (k0_pay7 (F := Ideal) v0 v4 v7 v17 v19 v28 v30) v39 v42)
        (k0_pay9 (F := Ideal) (k0_pay6 (F := Ideal) v0 v4 v7) v50 v52 v61 v63 v72) v75 (ix2 p (colL k))
      = v0 (ix2 p (colL k)) := by
  rw [pay1_left, pay3_apply]

/-- The first result's block, transformed columns. -/
theorem body_zOut_right (p : Fin 2048) (k : Fin 64) :
    k0_pay1 (F := Ideal) (k0_pay3 (F := Ideal) v0) (k0_pay4 (F := Ideal) v0)
        (k0_pay8 (F := Ideal) (k0_pay7 (F := Ideal) v0 v4 v7 v17 v19 v28 v30) v39 v42)
        (k0_pay9 (F := Ideal) (k0_pay6 (F := Ideal) v0 v4 v7) v50 v52 v61 v63 v72) v75 (ix2 p (colR k))
      = v0 (ix2 p (colR k)) * Ideal.exp (clip (sNet v0 v4 v7 v17 v19 v28 v30 v39 v42 p k))
        + tNet v0 v4 v7 v50 v52 v61 v63 v72 v75 p k := by
  rw [pay1_right, pay4_apply, body_logScale, body_shift]

/-- The second result's block: the row sums of the clamped log-scale. -/
theorem body_logDet (p : Fin 2048) (u : Fin 1) :
    k0_pay2 (F := Ideal) (k0_pay8 (F := Ideal) (k0_pay7 (F := Ideal) v0 v4 v7 v17 v19 v28 v30) v39 v42) (ix2 p u)
      = ∑ j : Fin 64, clip (sNet v0 v4 v7 v17 v19 v28 v30 v39 v42 p j) := by
  rw [pay2_apply]
  simp only [body_logScale]

end Body

end Cert.Coupling.KernelSide

end
-- ==== Proof.KernelBody.lean ====
/-
  The body's two stores as functions of the blocks it is given, when those blocks are pieces of the layer's arrays:
  the z block holds rows (row p) of z, and each weight operand is the whole of a weight array with its two matrix axes
  exchanged (W[input, unit] where the layer has W[unit, input]), the two first layers side by side along the units.
  Then the stored z block is the layer's first result on those rows and the stored column is its second result there.
-/
import proofs.«146900_j77953656423056_2_alg».proof.Proof.Gen.KernelIdeal.Frame
import proofs.«146900_j77953656423056_2_alg».proof.Proof.KernelLayers

noncomputable section

namespace Cert.Coupling.KernelSide

open Idealize.ShloMosaic Idealize.ShloMosaic.ValueIdx Cert.KernelIdeal Cert.KernelIdeal.Gen Cert.Coupling

theorem hz1 : (![0] : Fin 1 → Nat) = fun _ => 0 := funext fun a => by fin_cases a <;> rfl
theorem hz2 : (![0, 0] : Fin 2 → Nat) = fun _ => 0 := funext fun a => by fin_cases a <;> rfl

/-! ## The body's loads -/

theorem ld_0 (x : Vec Ideal S2048x128 .f32) : View.ld x r0_0 = x := View.ld_unit_zero (S := S2048x128) hz2 _ x
theorem ld_1 (x : Vec Ideal S64x1024 .bf16) : View.ld x r0_1 = x := View.ld_unit_zero (S := S64x1024) hz2 _ x
theorem ld_2 (x : Vec Ideal S1024 .f32) : View.ld x r0_2 = x := View.ld_unit_zero (S := S1024) hz1 _ x
theorem ld_7 (x : Vec Ideal S512x64 .bf16) : View.ld x r0_7 = x := View.ld_unit_zero (S := S512x64) hz2 _ x
theorem ld_8 (x : Vec Ideal S64 .f32) : View.ld x r0_8 = x := View.ld_unit_zero (S := S64) hz1 _ x

/-- The first and the second matrix of a stack of two, and the first and second bias row, loaded as unit stacks. -/
theorem ld_3 (x : Vec Ideal S2x512x512 .bf16) (u : Fin 1) (k j : Fin 512) :
    View.ld x r0_3 (ix3 u k j) = x (ix3 (0 : Fin 2) k j) := by
  show x (r0_3.emb (ix3 u k j)) = _
  refine congrArg x (funext fun a => Fin.ext ?_)
  have hu : u.val = 0 := by omega
  match a with
  | ⟨0, _⟩ => show 0 + 1 * u.val = 0; omega
  | ⟨1, _⟩ => show 0 + 1 * k.val = k.val; omega
  | ⟨2, _⟩ => show 0 + 1 * j.val = j.val; omega
theorem ld_5 (x : Vec Ideal S2x512x512 .bf16) (u : Fin 1) (k j : Fin 512) :
    View.ld x r0_5 (ix3 u k j) = x (ix3 (1 : Fin 2) k j) := by
  show x (r0_5.emb (ix3 u k j)) = _
  refine congrArg x (funext fun a => Fin.ext ?_)
  have hu : u.val = 0 := by omega
  match a with
  | ⟨0, _⟩ => show 1 + 1 * u.val = 1; omega
  | ⟨1, _⟩ => show 0 + 1 * k.val = k.val; omega
  | ⟨2, _⟩ => show 0 + 1 * j.val = j.val; omega
theorem ld_4 (x : Vec Ideal S2x512 .f32) (u : Fin 1) (j : Fin 512) :
    View.ld x r0_4 (ix2 u j) = x (ix2 (0 : Fin 2) j) := by
  show x (r0_4.emb (ix2 u j)) = _
  refine congrArg x (funext fun a => Fin.ext ?_)
  have hu : u.val = 0 := by omega
  match a with
  | ⟨0, _⟩ => show 0 + 1 * u.val = 0; omega
  | ⟨1, _⟩ => show 0 + 1 * j.val = j.val; omega
theorem ld_6 (x : Vec Ideal S2x512 .f32) (u : Fin 1) (j : Fin 512) :
    View.ld x r0_6 (ix2 u j) = x (ix2 (1 : Fin 2) j) := by
  show x (r0_6.emb (ix2 u j)) = _
  refine congrArg x (funext fun a => Fin.ext ?_)
  have hu : u.val = 0 := by omega
  match a with
  | ⟨0, _⟩ => show 1 + 1 * u.val = 1; omega
  | ⟨1, _⟩ => show 0 + 1 * j.val = j.val; omega

/-! ## The two stores -/

section Block
variable (x0 : Vec Ideal S2048x128 .f32) (x1 : Vec Ideal S64x1024 .bf16) (x2 : Vec Ideal S1024 .f32)
  (x3 : Vec Ideal S2x512x512 .bf16) (x4 : Vec Ideal S2x512 .f32) (x5 : Vec Ideal S512x64 .bf16) (x6 : Vec Ideal S64 .f32)
  (x7 : Vec Ideal S2x512x512 .bf16) (x8 : Vec Ideal S2x512 .f32) (x9 : Vec Ideal S512x64 .bf16) (x10 : Vec Ideal S64 .f32)

/-- What the body stores to the first result's block. -/
def zBlock : FVec Ideal S2048x128 .f32 :=
  k0_pay1 (F := Ideal) (k0_pay3 (View.ld x0 r0_0)) (k0_pay4 (View.ld x0 r0_0))
    (k0_pay8 (k0_pay7 (View.ld x0 r0_0) (View.ld x1 r0_1) (View.ld x2 r0_2) (View.ld x3 r0_3) (View.ld x4 r0_4)
      (View.ld x3 r0_5) (View.ld x4 r0_6)) (View.ld x5 r0_7) (View.ld x6 r0_8))
    (k0_pay9 (k0_pay6 (View.ld x0 r0_0) (View.ld x1 r0_1) (View.ld x2 r0_2)) (View.ld x7 r0_3) (View.ld x8 r0_4)
      (View.ld x7 r0_5) (View.ld x8 r0_6) (View.ld x9 r0_7)) (View.ld x10 r0_8)

/-- What the body stores to the second result's block. -/
def ldBlock : FVec Ideal S2048x1 .f32 :=
  k0_pay2 (F := Ideal) (k0_pay8 (k0_pay7 (View.ld x0 r0_0) (View.ld x1 r0_1) (View.ld x2 r0_2) (View.ld x3 r0_3)
    (View.ld x4 r0_4) (View.ld x3 r0_5) (View.ld x4 r0_6)) (View.ld x5 r0_7) (View.ld x6 r0_8))

theorem out0_11_eq : out0_11 (F := Ideal) x0 x1 x2 x3 x4 x5 x6 x7 x8 x9 x10 = zBlock x0 x1 x2 x3 x4 x5 x6 x7 x8 x9 x10 := by
  unfold out0_11 zBlock
  exact View.canon_unit_zero hz2 _ _

theorem out0_12_eq : out0_12 (F := Ideal) x0 x1 x2 x3 x4 x5 x6 x7 x8 x9 x10 = ldBlock x0 x1 x2 x3 x4 x5 x6 := by
  unfold out0_12 ldBlock
  exact View.canon_unit_zero hz2 _ _

variable (Z : SZ.Idx → EReal)
  (a1 : SWin.Idx → EReal) (a2 : SBin.Idx → EReal) (a3 : SWhid.Idx → EReal) (a4 : SBhid.Idx → EReal)
  (a5 : SWout.Idx → EReal) (a6 : SBout.Idx → EReal)
  (a7 : SWin.Idx → EReal) (a8 : SBin.Idx → EReal) (a9 : SWhid.Idx → EReal) (a10 : SBhid.Idx → EReal)
  (a11 : SWout.Idx → EReal) (a12 : SBout.Idx → EReal)
  (row : Fin 2048 → Fin 65536)

/-- The s perceptron on the block's row p is the layer's on row (row p). -/
theorem block_sNet (h0 : ∀ p q, x0 (ix2 p q) = Z (ix2 (row p) q))
    (h1 : ∀ k j, x1 (ix2 k (unitS j)) = a1 (ix2 j k)) (h2 : ∀ j, x2 (ix1 (unitS j)) = a2 (ix1 j))
    (h3 : ∀ l k j, x3 (ix3 l k j) = a3 (ix3 l j k)) (h4 : ∀ l j, x4 (ix2 l j) = a4 (ix2 l j))
    (h5 : ∀ k j, x5 (ix2 k j) = a5 (ix2 j k)) (h6 : ∀ j, x6 (ix1 j) = a6 (ix1 j)) (p : Fin 2048) (q : Fin 64) :
    sNet (View.ld x0 r0_0) (View.ld x1 r0_1) (View.ld x2 r0_2) (View.ld x3 r0_3) (View.ld x4 r0_4) (View.ld x3 r0_5)
      (View.ld x4 r0_6) (View.ld x5 r0_7) (View.ld x6 r0_8) p q = net Z a1 a2 a3 a4 a5 a6 (row p) q := by
  unfold sNet net
  have e1 : (fun (a : Fin 512) (b : Fin 64) => View.ld x1 r0_1 (ix2 b (unitS a))) = fun a b => a1 (ix2 a b) := by
    funext a b; rw [ld_1, h1]
  have e2 : (fun (a : Fin 512) => View.ld x2 r0_2 (ix1 (unitS a))) = fun a => a2 (ix1 a) := by
    funext a; rw [ld_2, h2]
  have e3 : (fun (a b : Fin 512) => View.ld x3 r0_3 (ix3 (0 : Fin 1) b a)) = fun a b => a3 (ix3 (0 : Fin 2) a b) := by
    funext a b; rw [ld_3, h3]
  have e4 : (fun (a : Fin 512) => View.ld x4 r0_4 (ix2 (0 : Fin 1) a)) = fun a => a4 (ix2 (0 : Fin 2) a) := by
    funext a; rw [ld_4, h4]
  have e5 : (fun (a b : Fin 512) => View.ld x3 r0_5 (ix3 (0 : Fin 1) b a)) = fun a b => a3 (ix3 (1 : Fin 2) a b) := by
    funext a b; rw [ld_5, h3]
  have e6 : (fun (a : Fin 512) => View.ld x4 r0_6 (ix2 (0 : Fin 1) a)) = fun a => a4 (ix2 (1 : Fin 2) a) := by
    funext a; rw [ld_6, h4]
  have e7 : (fun (a : Fin 64) (b : Fin 512) => View.ld x5 r0_7 (ix2 b a)) = fun a b => a5 (ix2 a b) := by
    funext a b; rw [ld_7, h5]
  have e8 : (fun (a : Fin 64) => View.ld x6 r0_8 (ix1 a)) = fun a => a6 (ix1 a) := by
    funext a; rw [ld_8, h6]
  have e0 : (fun (k : Fin 64) => View.ld x0 r0_0 (ix2 p (colL k))) = fun k => Z (ix2 (row p) (colL k)) := by
    funext k; rw [ld_0, h0]
  rw [e1, e2, e3, e4, e5, e6, e7, e8, e0]

/-- The t perceptron likewise. -/
theorem block_tNet (h0 : ∀ p q, x0 (ix2 p q) = Z (ix2 (row p) q))
    (h1 : ∀ k j, x1 (ix2 k (unitT j)) = a7 (ix2 j k)) (h2 : ∀ j, x2 (ix1 (unitT j)) = a8 (ix1 j))
    (h7 : ∀ l k j, x7 (ix3 l k j) = a9 (ix3 l j k)) (h8 : ∀ l j, x8 (ix2 l j) = a10 (ix2 l j))
    (h9 : ∀ k j, x9 (ix2 k j) = a11 (ix2 j k)) (h10 : ∀ j, x10 (ix1 j) = a12 (ix1 j)) (p : Fin 2048) (q : Fin 64) :
    tNet (View.ld x0 r0_0) (View.ld x1 r0_1) (View.ld x2 r0_2) (View.ld x7 r0_3) (View.ld x8 r0_4) (View.ld x7 r0_5)
      (View.ld x8 r0_6) (View.ld x9 r0_7) (View.ld x10 r0_8) p q = net Z a7 a8 a9 a10 a11 a12 (row p) q := by
  unfold tNet net
  have e1 : (fun (a : Fin 512) (b : Fin 64) => View.ld x1 r0_1 (ix2 b (unitT a))) = fun a b => a7 (ix2 a b) := by
    funext a b; rw [ld_1, h1]
  have e2 : (fun (a : Fin 512) => View.ld x2 r0_2 (ix1 (unitT a))) = fun a => a8 (ix1 a) := by
    funext a; rw [ld_2, h2]
  have e3 : (fun (a b : Fin 512) => View.ld x7 r0_3 (ix3 (0 : Fin 1) b a)) = fun a b => a9 (ix3 (0 : Fin 2) a b) := by
    funext a b; rw [ld_3, h7]
  have e4 : (fun (a : Fin 512) => View.ld x8 r0_4 (ix2 (0 : Fin 1) a)) = fun a => a10 (ix2 (0 : Fin 2) a) := by
    funext a; rw [ld_4, h8]
  have e5 : (fun (a b : Fin 512) => View.ld x7 r0_5 (ix3 (0 : Fin 1) b a)) = fun a b => a9 (ix3 (1 : Fin 2) a b) := by
    funext a b; rw [ld_5, h7]
  have e6 : (fun (a : Fin 512) => View.ld x8 r0_6 (ix2 (0 : Fin 1) a)) = fun a => a10 (ix2 (1 : Fin 2) a) := by
    funext a; rw [ld_6, h8]
  have e7 : (fun (a : Fin 64) (b : Fin 512) => View.ld x9 r0_7 (ix2 b a)) = fun a b => a11 (ix2 a b) := by
    funext a b; rw [ld_7, h9]
  have e8 : (fun (a : Fin 64) => View.ld x10 r0_8 (ix1 a)) = fun a => a12 (ix1 a) := by
    funext a; rw [ld_8, h10]
  have e0 : (fun (k : Fin 64) => View.ld x0 r0_0 (ix2 p (colL k))) = fun k => Z (ix2 (row p) (colL k)) := by
    funext k; rw [ld_0, h0]
  rw [e1, e2, e3, e4, e5, e6, e7, e8, e0]

/-- The stored z block at (p, q) is the layer's first result at row (row p), column q. -/
theorem zBlock_apply (h0 : ∀ p q, x0 (ix2 p q) = Z (ix2 (row p) q))
    (h1S : ∀ k j, x1 (ix2 k (unitS j)) = a1 (ix2 j k)) (h2S : ∀ j, x2 (ix1 (unitS j)) = a2 (ix1 j))
    (h3 : ∀ l k j, x3 (ix3 l k j) = a3 (ix3 l j k)) (h4 : ∀ l j, x4 (ix2 l j) = a4 (ix2 l j))
    (h5 : ∀ k j, x5 (ix2 k j) = a5 (ix2 j k)) (h6 : ∀ j, x6 (ix1 j) = a6 (ix1 j))
    (h1T : ∀ k j, x1 (ix2 k (unitT j)) = a7 (ix2 j k)) (h2T : ∀ j, x2 (ix1 (unitT j)) = a8 (ix1 j))
    (h7 : ∀ l k j, x7 (ix3 l k j) = a9 (ix3 l j k)) (h8 : ∀ l j, x8 (ix2 l j) = a10 (ix2 l j))
    (h9 : ∀ k j, x9 (ix2 k j) = a11 (ix2 j k)) (h10 : ∀ j, x10 (ix1 j) = a12 (ix1 j)) (y : S2048x128.Idx) :
    zBlock x0 x1 x2 x3 x4 x5 x6 x7 x8 x9 x10 y
      = zOut Z a1 a2 a3 a4 a5 a6 a7 a8 a9 a10 a11 a12 (ix2 (row (y 0)) (y 1)) := by
  obtain ⟨p, q, rfl⟩ : ∃ (p : Fin 2048) (q : Fin 128), y = ix2 p q := ⟨y 0, y 1, eq_ix2 y⟩
  show zBlock x0 x1 x2 x3 x4 x5 x6 x7 x8 x9 x10 (ix2 p q) = zOut Z a1 a2 a3 a4 a5 a6 a7 a8 a9 a10 a11 a12 (ix2 (row p) q)
  unfold zBlock
  by_cases hq : q.val < 64
  · have e : q = colL ⟨q.val, hq⟩ := Fin.ext rfl
    rw [e, body_zOut_left, zOut_left, ld_0, h0]
  · have e : q = colR ⟨q.val - 64, by have := q.isLt; omega⟩ := Fin.ext (by show q.val = 64 + (q.val - 64); omega)
    rw [e, body_zOut_right, zOut_right, block_sNet x0 x1 x2 x3 x4 x5 x6 Z a1 a2 a3 a4 a5 a6 row h0 h1S h2S h3 h4 h5 h6,
      block_tNet x0 x1 x2 x7 x8 x9 x10 Z a7 a8 a9 a10 a11 a12 row h0 h1T h2T h7 h8 h9 h10, ld_0, h0]
    rfl

/-- The stored column at row p is the layer's second result at row (row p). -/
theorem ldBlock_apply (h0 : ∀ p q, x0 (ix2 p q) = Z (ix2 (row p) q))
    (h1S : ∀ k j, x1 (ix2 k (unitS j)) = a1 (ix2 j k)) (h2S : ∀ j, x2 (ix1 (unitS j)) = a2 (ix1 j))
    (h3 : ∀ l k j, x3 (ix3 l k j) = a3 (ix3 l j k)) (h4 : ∀ l j, x4 (ix2 l j) = a4 (ix2 l j))
    (h5 : ∀ k j, x5 (ix2 k j) = a5 (ix2 j k)) (h6 : ∀ j, x6 (ix1 j) = a6 (ix1 j)) (y : S2048x1.Idx) :
    ldBlock x0 x1 x2 x3 x4 x5 x6 y = logDet Z a1 a2 a3 a4 a5 a6 (ix1 (row (y 0))) := by
  obtain ⟨p, u, rfl⟩ : ∃ (p : Fin 2048) (u : Fin 1), y = ix2 p u := ⟨y 0, y 1, eq_ix2 y⟩
  show ldBlock x0 x1 x2 x3 x4 x5 x6 (ix2 p u) = logDet Z a1 a2 a3 a4 a5 a6 (ix1 (row p))
  unfold ldBlock logDet logScale
  rw [body_logDet]
  exact Finset.sum_congr rfl fun j _ => congrArg clip
    (block_sNet x0 x1 x2 x3 x4 x5 x6 Z a1 a2 a3 a4 a5 a6 row h0 h1S h2S h3 h4 h5 h6 p j)

end Block

end Cert.Coupling.KernelSide

end
-- ==== Proof.KernelBlocks.lean ====
/-
  The grid is 32 points; point t takes rows 2048·t .. 2048·t + 2047 of z, writes the same rows of both results, and
  takes every weight operand whole.  Here: those facts about the printed index maps, decided over the 32 points; each
  window's block at a point read off its array; and that the result windows' blocks cover their arrays.
-/
import proofs.«146900_j77953656423056_2_alg».proof.Proof.Gen.KernelIdeal.Frame
import proofs.«146900_j77953656423056_2_alg».proof.Proof.KernelBody
import Idealize.ShloMosaic.Lib.Pipeline.Value

set_option maxRecDepth 16384

noncomputable section

namespace Cert.Coupling.KernelSide

open Idealize.ShloMosaic Idealize.ShloMosaic.TcCoe Idealize.ShloMosaic.ValueIdx Idealize.SL.Sem
open Cert.KernelIdeal Cert.KernelIdeal.Gen Cert.Coupling
open Idealize.ShloMosaic.Pipeline (Dat Cfg Window)

variable (m : (ℓ : Loc nD τ sig) → Buf (Elt Ideal) ℓ) (c : Dev nD)

/-- The z window and the two result windows move one block of rows per grid point and never along the columns. -/
theorem idx_rows : ∀ t : Fin cfg0.N, win0_0.index t (0 : Fin 2) = t.val ∧ win0_0.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- Every weight window stays at its one block. -/
theorem idx_whole : ∀ t : Fin cfg0.N, win0_1.index t (0 : Fin 2) = 0
    ∧ win0_1.index t (1 : Fin 2) = 0
    ∧ win0_2.index t (0 : Fin 1) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 1) = 0 :=
  (by decide +kernel : ∀ t : Fin grid0.N, _)

theorem lt_N (t : Fin cfg0.N) : t.val < 32 := lt_of_lt_of_eq t.isLt N_0

/-- The row of the arrays that row p of point t's block is. -/
def rowAt (t : Fin cfg0.N) (p : Fin 2048) : Fin 65536 := ⟨t.val * 2048 + p.val, by have := lt_N t; omega⟩

/-- The z block at point t holds rows 2048·t + p of z as the region finds it. -/
theorem iblk0_apply (t : Fin cfg0.N) (p : Fin 2048) (q : Fin 128) :
    (iblk m c 0 t : Vec Ideal S2048x128 .f32) (ix2 p q) = V m c main_arg0 (ix2 (rowAt t p) q) := by
  show V m c main_arg0 (((cfg0.win 0).blk t).view.emb (ix2 p q)) = V m c main_arg0 _
  refine congrArg (V m c main_arg0) (funext fun a => Fin.ext ?_)
  obtain ⟨e0, e1, -⟩ := idx_rows t
  match a with
  | ⟨0, _⟩ => show win0_0.index t (0 : Fin 2) * 2048 + 1 * p.val = t.val * 2048 + p.val; rw [e0]; omega
  | ⟨1, _⟩ => show win0_0.index t (1 : Fin 2) * 128 + 1 * q.val = q.val; rw [e1]; omega

/-- Window 1's block is the whole of its array. -/
theorem iblk1_apply (t : Fin cfg0.N) (i0 : Fin 64) (i1 : Fin 1024) :
    (iblk m c 1 t : Vec Ideal S64x1024 _) (ix2 i0 i1) = V m c main_v2 (ix2 i0 i1) := by
  show V m c main_v2 (((cfg0.win 1).blk t).view.emb (ix2 i0 i1)) = V m c main_v2 _
  refine congrArg (V m c main_v2) (funext fun a => Fin.ext ?_)
  have hz := idx_whole t
  match a with
  | ⟨0, _⟩ => show win0_1.index t (0 : Fin 2) * 64 + 1 * i0.val = i0.val; rw [hz.1]; omega
  | ⟨1, _⟩ => show win0_1.index t (1 : Fin 2) * 1024 + 1 * i1.val = i1.val; rw [hz.2.1]; omega

/-- Window 2's block is the whole of its array. -/
theorem iblk2_apply (t : Fin cfg0.N) (i0 : Fin 1024) :
    (iblk m c 2 t : Vec Ideal S1024 _) (ix1 i0) = V m c main_v3 (ix1 i0) := by
  show V m c main_v3 (((cfg0.win 2).blk t).view.emb (ix1 i0)) = V m c main_v3 _
  refine congrArg (V m c main_v3) (funext fun a => Fin.ext ?_)
  have hz := idx_whole t
  match a with
  | ⟨0, _⟩ => show win0_2.index t (0 : Fin 1) * 1024 + 1 * i0.val = i0.val; rw [hz.2.2.1]; omega

/-- Window 3's block is the whole of its array. -/
theorem iblk3_apply (t : Fin cfg0.N) (i0 : Fin 2) (i1 : Fin 512) (i2 : Fin 512) :
    (iblk m c 3 t : Vec Ideal S2x512x512 _) (ix3 i0 i1 i2) = V m c main_v5 (ix3 i0 i1 i2) := by
  show V m c main_v5 (((cfg0.win 3).blk t).view.emb (ix3 i0 i1 i2)) = V m c main_v5 _
  refine congrArg (V m c main_v5) (funext fun a => Fin.ext ?_)
  have hz := idx_whole t
  match a with
  | ⟨0, _⟩ => show win0_3.index t (0 : Fin 3) * 2 + 1 * i0.val = i0.val; rw [hz.2.2.2.1]; omega
  | ⟨1, _⟩ => show win0_3.index t (1 : Fin 3) * 512 + 1 * i1.val = i1.val; rw [hz.2.2.2.2.1]; omega
  | ⟨2, _⟩ => show win0_3.index t (2 : Fin 3) * 512 + 1 * i2.val = i2.val; rw [hz.2.2.2.2.2.1]; omega

/-- Window 4's block is the whole of its array. -/
theorem iblk4_apply (t : Fin cfg0.N) (i0 : Fin 2) (i1 : Fin 512) :
    (iblk m c 4 t : Vec Ideal S2x512 _) (ix2 i0 i1) = V m c main_arg4 (ix2 i0 i1) := by
  show V m c main_arg4 (((cfg0.win 4).blk t).view.emb (ix2 i0 i1)) = V m c main_arg4 _
  refine congrArg (V m c main_arg4) (funext fun a => Fin.ext ?_)
  have hz := idx_whole t
  match a with
  | ⟨0, _⟩ => show win0_4.index t (0 : Fin 2) * 2 + 1 * i0.val = i0.val; rw [hz.2.2.2.2.2.2.1]; omega
  | ⟨1, _⟩ => show win0_4.index t (1 : Fin 2) * 512 + 1 * i1.val = i1.val; rw [hz.2.2.2.2.2.2.2.1]; omega

/-- Window 5's block is the whole of its array. -/
theorem iblk5_apply (t : Fin cfg0.N) (i0 : Fin 512) (i1 : Fin 64) :
    (iblk m c 5 t : Vec Ideal S512x64 _) (ix2 i0 i1) = V m c main_v9 (ix2 i0 i1) := by
  show V m c main_v9 (((cfg0.win 5).blk t).view.emb (ix2 i0 i1)) = V m c main_v9 _
  refine congrArg (V m c main_v9) (funext fun a => Fin.ext ?_)
  have hz := idx_whole t
  match a with
  | ⟨0, _⟩ => show win0_5.index t (0 : Fin 2) * 512 + 1 * i0.val = i0.val; rw [hz.2.2.2.2.2.2.2.2.1]; omega
  | ⟨1, _⟩ => show win0_5.index t (1 : Fin 2) * 64 + 1 * i1.val = i1.val; rw [hz.2.2.2.2.2.2.2.2.2.1]; omega

/-- Window 6's block is the whole of its array. -/
theorem iblk6_apply (t : Fin cfg0.N) (i0 : Fin 64) :
    (iblk m c 6 t : Vec Ideal S64 _) (ix1 i0) = V m c main_arg6 (ix1 i0) := by
  show V m c main_arg6 (((cfg0.win 6).blk t).view.emb (ix1 i0)) = V m c main_arg6 _
  refine congrArg (V m c main_arg6) (funext fun a => Fin.ext ?_)
  have hz := idx_whole t
  match a with
  | ⟨0, _⟩ => show win0_6.index t (0 : Fin 1) * 64 + 1 * i0.val = i0.val; rw [hz.2.2.2.2.2.2.2.2.2.2.1]; omega

/-- Window 7's block is the whole of its array. -/
theorem iblk7_apply (t : Fin cfg0.N) (i0 : Fin 2) (i1 : Fin 512) (i2 : Fin 512) :
    (iblk m c 7 t : Vec Ideal S2x512x512 _) (ix3 i0 i1 i2) = V m c main_v7 (ix3 i0 i1 i2) := by
  show V m c main_v7 (((cfg0.win 7).blk t).view.emb (ix3 i0 i1 i2)) = V m c main_v7 _
  refine congrArg (V m c main_v7) (funext fun a => Fin.ext ?_)
  have hz := idx_whole t
  match a with
  | ⟨0, _⟩ => show win0_7.index t (0 : Fin 3) * 2 + 1 * i0.val = i0.val; rw [hz.2.2.2.2.2.2.2.2.2.2.2.1]; omega
  | ⟨1, _⟩ => show win0_7.index t (1 : Fin 3) * 512 + 1 * i1.val = i1.val; rw [hz.2.2.2.2.2.2.2.2.2.2.2.2.1]; omega
  | ⟨2, _⟩ => show win0_7.index t (2 : Fin 3) * 512 + 1 * i2.val = i2.val; rw [hz.2.2.2.2.2.2.2.2.2.2.2.2.2.1]; omega

/-- Window 8's block is the whole of its array. -/
theorem iblk8_apply (t : Fin cfg0.N) (i0 : Fin 2) (i1 : Fin 512) :
    (iblk m c 8 t : Vec Ideal S2x512 _) (ix2 i0 i1) = V m c main_arg10 (ix2 i0 i1) := by
  show V m c main_arg10 (((cfg0.win 8).blk t).view.emb (ix2 i0 i1)) = V m c main_arg10 _
  refine congrArg (V m c main_arg10) (funext fun a => Fin.ext ?_)
  have hz := idx_whole t
  match a with
  | ⟨0, _⟩ => show win0_8.index t (0 : Fin 2) * 2 + 1 * i0.val = i0.val; rw [hz.2.2.2.2.2.2.2.2.2.2.2.2.2.2.1]; omega
  | ⟨1, _⟩ => show win0_8.index t (1 : Fin 2) * 512 + 1 * i1.val = i1.val; rw [hz.2.2.2.2.2.2.2.2.2.2.2.2.2.2.2.1]; omega

/-- Window 9's block is the whole of its array. -/
theorem iblk9_apply (t : Fin cfg0.N) (i0 : Fin 512) (i1 : Fin 64) :
    (iblk m c 9 t : Vec Ideal S512x64 _) (ix2 i0 i1) = V m c main_v11 (ix2 i0 i1) := by
  show V m c main_v11 (((cfg0.win 9).blk t).view.emb (ix2 i0 i1)) = V m c main_v11 _
  refine congrArg (V m c main_v11) (funext fun a => Fin.ext ?_)
  have hz := idx_whole t
  match a with
  | ⟨0, _⟩ => show win0_9.index t (0 : Fin 2) * 512 + 1 * i0.val = i0.val; rw [hz.2.2.2.2.2.2.2.2.2.2.2.2.2.2.2.2.1]; omega
  | ⟨1, _⟩ => show win0_9.index t (1 : Fin 2) * 64 + 1 * i1.val = i1.val; rw [hz.2.2.2.2.2.2.2.2.2.2.2.2.2.2.2.2.2.1]; omega

/-- Window 10's block is the whole of its array. -/
theorem iblk10_apply (t : Fin cfg0.N) (i0 : Fin 64) :
    (iblk m c 10 t : Vec Ideal S64 _) (ix1 i0) = V m c main_arg12 (ix1 i0) := by
  show V m c main_arg12 (((cfg0.win 10).blk t).view.emb (ix1 i0)) = V m c main_arg12 _
  refine congrArg (V m c main_arg12) (funext fun a => Fin.ext ?_)
  have hz := idx_whole t
  match a with
  | ⟨0, _⟩ => show win0_10.index t (0 : Fin 1) * 64 + 1 * i0.val = i0.val; rw [hz.2.2.2.2.2.2.2.2.2.2.2.2.2.2.2.2.2.2]; omega

end Cert.Coupling.KernelSide

end
-- ==== Proof.KernelHost.lean ====
/-
  The weight arrays the kernel is launched on, read at an entry in terms of the layer's argument arrays: the host
  operations before the launch stack the two perceptrons' first layers along the unit axis, transpose every weight
  matrix (so that a unit's weights run down a column), and change the float format, which is the identity on the
  extended reals.
-/
import proofs.«146900_j77953656423056_2_alg».proof.Proof.Gen.KernelIdeal.Frame
import proofs.«146900_j77953656423056_2_alg».proof.Proof.KernelLayers
import Idealize.ShloMosaic.Lib.ValueLayout
import Idealize.ShloMosaic.Lib.Pipeline.Value
import Idealize.ShloMosaic.Lib.StableHlo.Run

noncomputable section

namespace Cert.Coupling.KernelSide

open Idealize.ShloMosaic Idealize.ShloMosaic.TcCoe Idealize.ShloMosaic.ValueIdx Cert.KernelIdeal Cert.KernelIdeal.Gen Cert.Coupling

variable (m : (ℓ : Loc nD τ sig) → Buf (Elt Ideal) ℓ) (c : Dev nD)

/-- The first-layer weights as the kernel finds them: the two perceptrons' matrices stacked along the unit axis,
    transposed. -/
theorem V_v2_eq : (V m c main_v2 : S64x1024.Idx → EReal) = truncf (F := Ideal) .bf16 (transpose S64x1024 [1, 0]
      (concatenate S1024x64 0 [⟨S512x64, m ((c : Thread nD τ).loc main_arg1)⟩, ⟨S512x64, m ((c : Thread nD τ).loc main_arg7)⟩] concatenates_S512x64_S512x64_S1024x64_d0)
      transposes_S1024x64_S64x1024_1_0) bitsLt_bf16_f32 := by
  show StableHlo.after hostOps0 (fun b => m (c, b)) (Proc.devRef .tc main_v2) = _
  after_results

/-- The first-layer biases as the kernel finds them: the two perceptrons' rows joined. -/
theorem V_v3_eq : (V m c main_v3 : S1024.Idx → EReal) = concatenate S1024 0 [⟨S512, m ((c : Thread nD τ).loc main_arg2)⟩, ⟨S512, m ((c : Thread nD τ).loc main_arg8)⟩] concatenates_S512_S512_S1024_d0 := by
  show StableHlo.after hostOps0 (fun b => m (c, b)) (Proc.devRef .tc main_v3) = _
  after_results

/-- The hidden weights of s as the kernel finds them: each of the two matrices transposed. -/
theorem V_v5_eq : (V m c main_v5 : S2x512x512.Idx → EReal) = truncf (F := Ideal) .bf16 (transpose S2x512x512 [0, 2, 1] (m ((c : Thread nD τ).loc main_arg3))
      transposes_S2x512x512_S2x512x512_0_2_1) bitsLt_bf16_f32 := by
  show StableHlo.after hostOps0 (fun b => m (c, b)) (Proc.devRef .tc main_v5) = _
  after_results

/-- The hidden weights of t as the kernel finds them. -/
theorem V_v7_eq : (V m c main_v7 : S2x512x512.Idx → EReal) = truncf (F := Ideal) .bf16 (transpose S2x512x512 [0, 2, 1] (m ((c : Thread nD τ).loc main_arg9))
      transposes_S2x512x512_S2x512x512_0_2_1) bitsLt_bf16_f32 := by
  show StableHlo.after hostOps0 (fun b => m (c, b)) (Proc.devRef .tc main_v7) = _
  after_results

/-- The output weights of s as the kernel finds them: transposed. -/
theorem V_v9_eq : (V m c main_v9 : S512x64.Idx → EReal) = truncf (F := Ideal) .bf16 (transpose S512x64 [1, 0] (m ((c : Thread nD τ).loc main_arg5))
      transposes_S64x512_S512x64_1_0) bitsLt_bf16_f32 := by
  show StableHlo.after hostOps0 (fun b => m (c, b)) (Proc.devRef .tc main_v9) = _
  after_results

/-- The output weights of t as the kernel finds them. -/
theorem V_v11_eq : (V m c main_v11 : S512x64.Idx → EReal) = truncf (F := Ideal) .bf16 (transpose S512x64 [1, 0] (m ((c : Thread nD τ).loc main_arg11))
      transposes_S64x512_S512x64_1_0) bitsLt_bf16_f32 := by
  show StableHlo.after hostOps0 (fun b => m (c, b)) (Proc.devRef .tc main_v11) = _
  after_results

/-- Input k's weight on unit j of s, in the stacked first layer. -/
theorem V_v2_S (k : Fin 64) (j : Fin 512) : V m c main_v2 (ix2 k (unitS j)) = m ((c : Thread nD τ).loc main_arg1) (ix2 j k) := by
  rw [V_v2_eq, truncf_apply, transpose_ix2_apply]
  exact concatenate_pair_apply_left (t := S1024x64) (s₁ := S512x64) (s₂ := S512x64) (0 : Fin S1024x64.rank) _ _ _
    (ix2 (unitS j) k) rfl (ix2 j k) (fun b => match b with | ⟨0, _⟩ => rfl | ⟨1, _⟩ => rfl)

/-- Input k's weight on unit j of t, in the stacked first layer. -/
theorem V_v2_T (k : Fin 64) (j : Fin 512) : V m c main_v2 (ix2 k (unitT j)) = m ((c : Thread nD τ).loc main_arg7) (ix2 j k) := by
  rw [V_v2_eq, truncf_apply, transpose_ix2_apply]
  exact concatenate_pair_apply_right (t := S1024x64) (s₁ := S512x64) (s₂ := S512x64) (0 : Fin S1024x64.rank) _ _ _
    (ix2 (unitT j) k) rfl rfl (ix2 j k)
    (fun b => match b with | ⟨0, _⟩ => fun h => absurd rfl h | ⟨1, _⟩ => fun _ => rfl)
    (by show j.val + 512 = 512 + j.val; omega)

/-- The bias of unit j of s, in the joined first-layer bias row. -/
theorem V_v3_S (j : Fin 512) : V m c main_v3 (ix1 (unitS j)) = m ((c : Thread nD τ).loc main_arg2) (ix1 j) := by
  rw [V_v3_eq]
  exact concatenate_pair_apply_left (t := S1024) (s₁ := S512) (s₂ := S512) (0 : Fin S1024.rank) _ _ _
    (ix1 (unitS j)) rfl (ix1 j) (fun b => match b with | ⟨0, _⟩ => rfl)

/-- The bias of unit j of t, in the joined first-layer bias row. -/
theorem V_v3_T (j : Fin 512) : V m c main_v3 (ix1 (unitT j)) = m ((c : Thread nD τ).loc main_arg8) (ix1 j) := by
  rw [V_v3_eq]
  exact concatenate_pair_apply_right (t := S1024) (s₁ := S512) (s₂ := S512) (0 : Fin S1024.rank) _ _ _
    (ix1 (unitT j)) rfl rfl (ix1 j)
    (fun b => match b with | ⟨0, _⟩ => fun h => absurd rfl h)
    (by show j.val + 512 = 512 + j.val; omega)

/-- Input k's weight on unit j of hidden layer l of s. -/
theorem V_v5 (l : Fin 2) (k j : Fin 512) : V m c main_v5 (ix3 l k j) = m ((c : Thread nD τ).loc main_arg3) (ix3 l j k) := by
  rw [V_v5_eq, truncf_apply]
  exact transpose_ix3_021_apply _ _ l k j

/-- Input k's weight on unit j of hidden layer l of t. -/
theorem V_v7 (l : Fin 2) (k j : Fin 512) : V m c main_v7 (ix3 l k j) = m ((c : Thread nD τ).loc main_arg9) (ix3 l j k) := by
  rw [V_v7_eq, truncf_apply]
  exact transpose_ix3_021_apply _ _ l k j

/-- Input k's weight on output unit j of s. -/
theorem V_v9 (k : Fin 512) (j : Fin 64) : V m c main_v9 (ix2 k j) = m ((c : Thread nD τ).loc main_arg5) (ix2 j k) := by
  rw [V_v9_eq, truncf_apply]
  exact transpose_ix2_apply _ _ k j

/-- Input k's weight on output unit j of t. -/
theorem V_v11 (k : Fin 512) (j : Fin 64) : V m c main_v11 (ix2 k j) = m ((c : Thread nD τ).loc main_arg11) (ix2 j k) := by
  rw [V_v11_eq, truncf_apply]
  exact transpose_ix2_apply _ _ k j

end Cert.Coupling.KernelSide

end
-- ==== Proof.KernelFinal.lean ====
/-
  What each grid point writes back to the two result arrays, that the 32 blocks of rows cover each array, and so
  what the two arrays hold after the run: the layer's two results of the argument arrays.
-/
import proofs.«146900_j77953656423056_2_alg».proof.Proof.Gen.KernelIdeal.Frame
import proofs.«146900_j77953656423056_2_alg».proof.Proof.KernelBlocks
import proofs.«146900_j77953656423056_2_alg».proof.Proof.KernelHost
import Idealize.ShloMosaic.Lib.Pipeline.Value

set_option maxRecDepth 16384

noncomputable section

namespace Cert.Coupling.KernelSide

open Idealize.ShloMosaic Idealize.ShloMosaic.TcCoe Idealize.ShloMosaic.ValueIdx Idealize.SL.Sem
open Cert.KernelIdeal Cert.KernelIdeal.Gen Cert.Coupling
open Idealize.ShloMosaic.Pipeline (Dat Cfg Window)

variable (m : (ℓ : Loc nD τ sig) → Buf (Elt Ideal) ℓ) (c : Dev nD)

/-- The layer's first result of the argument arrays core c holds. -/
def zFinal : SZ.Idx → EReal := zOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The layer's second result of them, as the column the kernel writes. -/
def ldFinal : S65536x1.Idx → EReal := fun i => logDet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix1 (i 0))

/-- Point t writes back block t of the first result. -/
theorem flushed11_eq (t : Fin cfg0.N) :
    (dats m 0 c).flushed 11 t = ((cfg0.win 11).blk t).view.read (Elt Ideal) (zFinal m c) := by
  show (cfg0.win 11).cut (grid0.coords t) ((dats m 0 c).after 11 t) = _
  rw [after0_11, out0_11_eq]
  have h0 : ∀ (p : Fin 2048) (q : Fin 128), (iblk m c 0 t : Vec Ideal S2048x128 .f32) (ix2 p q) = (m ((c : Thread nD τ).loc main_arg0)) (ix2 (rowAt t p) q) :=
    fun p q => (iblk0_apply m c t p q).trans (congrFun (V_main_arg0 m c) _)
  have h1S : ∀ (k : Fin 64) (j : Fin 512), (iblk m c 1 t : Vec Ideal S64x1024 .bf16) (ix2 k (unitS j)) = (m ((c : Thread nD τ).loc main_arg1)) (ix2 j k) :=
    fun k j => (iblk1_apply m c t k (unitS j)).trans (V_v2_S m c k j)
  have h2S : ∀ (j : Fin 512), (iblk m c 2 t : Vec Ideal S1024 .f32) (ix1 (unitS j)) = (m ((c : Thread nD τ).loc main_arg2)) (ix1 j) :=
    fun j => (iblk2_apply m c t (unitS j)).trans (V_v3_S m c j)
  have h3 : ∀ (l : Fin 2) (k j : Fin 512), (iblk m c 3 t : Vec Ideal S2x512x512 .bf16) (ix3 l k j) = (m ((c : Thread nD τ).loc main_arg3)) (ix3 l j k) :=
    fun l k j => (iblk3_apply m c t l k j).trans (V_v5 m c l k j)
  have h4 : ∀ (l : Fin 2) (j : Fin 512), (iblk m c 4 t : Vec Ideal S2x512 .f32) (ix2 l j) = (m ((c : Thread nD τ).loc main_arg4)) (ix2 l j) :=
    fun l j => (iblk4_apply m c t l j).trans (congrFun (V_main_arg4 m c) _)
  have h5 : ∀ (k : Fin 512) (j : Fin 64), (iblk m c 5 t : Vec Ideal S512x64 .bf16) (ix2 k j) = (m ((c : Thread nD τ).loc main_arg5)) (ix2 j k) :=
    fun k j => (iblk5_apply m c t k j).trans (V_v9 m c k j)
  have h6 : ∀ (j : Fin 64), (iblk m c 6 t : Vec Ideal S64 .f32) (ix1 j) = (m ((c : Thread nD τ).loc main_arg6)) (ix1 j) :=
    fun j => (iblk6_apply m c t j).trans (congrFun (V_main_arg6 m c) _)
  have h1T : ∀ (k : Fin 64) (j : Fin 512), (iblk m c 1 t : Vec Ideal S64x1024 .bf16) (ix2 k (unitT j)) = (m ((c : Thread nD τ).loc main_arg7)) (ix2 j k) :=
    fun k j => (iblk1_apply m c t k (unitT j)).trans (V_v2_T m c k j)
  have h2T : ∀ (j : Fin 512), (iblk m c 2 t : Vec Ideal S1024 .f32) (ix1 (unitT j)) = (m ((c : Thread nD τ).loc main_arg8)) (ix1 j) :=
    fun j => (iblk2_apply m c t (unitT j)).trans (V_v3_T m c j)
  have h7 : ∀ (l : Fin 2) (k j : Fin 512), (iblk m c 7 t : Vec Ideal S2x512x512 .bf16) (ix3 l k j) = (m ((c : Thread nD τ).loc main_arg9)) (ix3 l j k) :=
    fun l k j => (iblk7_apply m c t l k j).trans (V_v7 m c l k j)
  have h8 : ∀ (l : Fin 2) (j : Fin 512), (iblk m c 8 t : Vec Ideal S2x512 .f32) (ix2 l j) = (m ((c : Thread nD τ).loc main_arg10)) (ix2 l j) :=
    fun l j => (iblk8_apply m c t l j).trans (congrFun (V_main_arg10 m c) _)
  have h9 : ∀ (k : Fin 512) (j : Fin 64), (iblk m c 9 t : Vec Ideal S512x64 .bf16) (ix2 k j) = (m ((c : Thread nD τ).loc main_arg11)) (ix2 j k) :=
    fun k j => (iblk9_apply m c t k j).trans (V_v11 m c k j)
  have h10 : ∀ (j : Fin 64), (iblk m c 10 t : Vec Ideal S64 .f32) (ix1 j) = (m ((c : Thread nD τ).loc main_arg12)) (ix1 j) :=
    fun j => (iblk10_apply m c t j).trans (congrFun (V_main_arg12 m c) _)
  funext y
  refine (zBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rowAt t) h0 h1S h2S h3 h4 h5 h6 h1T h2T h7 h8 h9 h10 y).trans ?_
  show zFinal m c (ix2 (rowAt t (y 0)) (y 1)) = zFinal m c (((cfg0.win 11).blk t).view.emb y)
  refine congrArg (zFinal m c) (funext fun a => Fin.ext ?_)
  obtain ⟨-, -, e0, e1, -⟩ := idx_rows t
  match a with
  | ⟨0, _⟩ => show t.val * 2048 + (y 0).val = win0_11.index t (0 : Fin 2) * 2048 + 1 * (y 0).val; rw [e0]; omega
  | ⟨1, _⟩ => show (y 1).val = win0_11.index t (1 : Fin 2) * 128 + 1 * (y 1).val; rw [e1]; omega

/-- Point t writes back block t of the second result's column. -/
theorem flushed12_eq (t : Fin cfg0.N) :
    (dats m 0 c).flushed 12 t = ((cfg0.win 12).blk t).view.read (Elt Ideal) (ldFinal m c) := by
  show (cfg0.win 12).cut (grid0.coords t) ((dats m 0 c).after 12 t) = _
  rw [after0_12, out0_12_eq]
  have h0 : ∀ (p : Fin 2048) (q : Fin 128), (iblk m c 0 t : Vec Ideal S2048x128 .f32) (ix2 p q) = (m ((c : Thread nD τ).loc main_arg0)) (ix2 (rowAt t p) q) :=
    fun p q => (iblk0_apply m c t p q).trans (congrFun (V_main_arg0 m c) _)
  have h1S : ∀ (k : Fin 64) (j : Fin 512), (iblk m c 1 t : Vec Ideal S64x1024 .bf16) (ix2 k (unitS j)) = (m ((c : Thread nD τ).loc main_arg1)) (ix2 j k) :=
    fun k j => (iblk1_apply m c t k (unitS j)).trans (V_v2_S m c k j)
  have h2S : ∀ (j : Fin 512), (iblk m c 2 t : Vec Ideal S1024 .f32) (ix1 (unitS j)) = (m ((c : Thread nD τ).loc main_arg2)) (ix1 j) :=
    fun j => (iblk2_apply m c t (unitS j)).trans (V_v3_S m c j)
  have h3 : ∀ (l : Fin 2) (k j : Fin 512), (iblk m c 3 t : Vec Ideal S2x512x512 .bf16) (ix3 l k j) = (m ((c : Thread nD τ).loc main_arg3)) (ix3 l j k) :=
    fun l k j => (iblk3_apply m c t l k j).trans (V_v5 m c l k j)
  have h4 : ∀ (l : Fin 2) (j : Fin 512), (iblk m c 4 t : Vec Ideal S2x512 .f32) (ix2 l j) = (m ((c : Thread nD τ).loc main_arg4)) (ix2 l j) :=
    fun l j => (iblk4_apply m c t l j).trans (congrFun (V_main_arg4 m c) _)
  have h5 : ∀ (k : Fin 512) (j : Fin 64), (iblk m c 5 t : Vec Ideal S512x64 .bf16) (ix2 k j) = (m ((c : Thread nD τ).loc main_arg5)) (ix2 j k) :=
    fun k j => (iblk5_apply m c t k j).trans (V_v9 m c k j)
  have h6 : ∀ (j : Fin 64), (iblk m c 6 t : Vec Ideal S64 .f32) (ix1 j) = (m ((c : Thread nD τ).loc main_arg6)) (ix1 j) :=
    fun j => (iblk6_apply m c t j).trans (congrFun (V_main_arg6 m c) _)
  funext y
  refine (ldBlock_apply (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowAt t) h0 h1S h2S h3 h4 h5 h6 y).trans ?_
  show ldFinal m c (ix2 (rowAt t (y 0)) (0 : Fin 1)) = ldFinal m c (((cfg0.win 12).blk t).view.emb y)
  refine congrArg (ldFinal m c) (funext fun a => Fin.ext ?_)
  obtain ⟨-, -, -, -, e0, e1⟩ := idx_rows t
  match a with
  | ⟨0, _⟩ => show t.val * 2048 + (y 0).val = win0_12.index t (0 : Fin 2) * 2048 + 1 * (y 0).val; rw [e0]; omega
  | ⟨1, _⟩ => show 0 = win0_12.index t (1 : Fin 2) * 1 + 1 * (y 1).val; rw [e1]; have hy : (y 1).val < 1 := (y 1).isLt; omega

/-- An index of the first result is in point t's block iff its row is among the block's 2048. -/
theorem mem_blk11 (t : Fin cfg0.N) (i : S65536x128.Idx) :
    i ∈ ((cfg0.win 11).blk t).view.set ↔ ∀ a : Fin 2, win0_11.index t a * S2048x128.size a ≤ (i a).val
      ∧ (i a).val < win0_11.index t a * S2048x128.size a + S2048x128.size a := by
  show i ∈ ((View.whole main_v12_0).slice (win0_11.rect t)).set ↔ _
  rw [View.set_slice_whole, Rect.mem_set_unit]
  exact Iff.rfl

theorem mem_blk12 (t : Fin cfg0.N) (i : S65536x1.Idx) :
    i ∈ ((cfg0.win 12).blk t).view.set ↔ ∀ a : Fin 2, win0_12.index t a * S2048x1.size a ≤ (i a).val
      ∧ (i a).val < win0_12.index t a * S2048x1.size a + S2048x1.size a := by
  show i ∈ ((View.whole main_v12_1).slice (win0_12.rect t)).set ↔ _
  rw [View.set_slice_whole, Rect.mem_set_unit]
  exact Iff.rfl

/-- The point whose block holds row r. -/
def pointOf (r : Nat) (hr : r < 65536) : Fin cfg0.N := ⟨r / 2048, lt_of_lt_of_eq (by omega : r / 2048 < 32) N_0.symm⟩

theorem cover11 (i : S65536x128.Idx) :
    ∃ t : Fin cfg0.N, (cfg0.win 11).flush t = true ∧ i ∈ ((cfg0.win 11).blk t).view.set := by
  have hi0 : (i 0).val < 65536 := (i 0).isLt
  have hi1 : (i 1).val < 128 := (i 1).isLt
  refine ⟨pointOf (i 0).val hi0, flush0_11 _, ?_⟩
  rw [mem_blk11]
  obtain ⟨-, -, e0, e1, -⟩ := idx_rows (pointOf (i 0).val hi0)
  intro a
  match a with
  | ⟨0, _⟩ =>
    show win0_11.index (pointOf (i 0).val hi0) (0 : Fin 2) * 2048 ≤ (i 0).val
      ∧ (i 0).val < win0_11.index (pointOf (i 0).val hi0) (0 : Fin 2) * 2048 + 2048
    rw [e0]; show (i 0).val / 2048 * 2048 ≤ (i 0).val ∧ (i 0).val < (i 0).val / 2048 * 2048 + 2048; omega
  | ⟨1, _⟩ =>
    show win0_11.index (pointOf (i 0).val hi0) (1 : Fin 2) * 128 ≤ (i 1).val
      ∧ (i 1).val < win0_11.index (pointOf (i 0).val hi0) (1 : Fin 2) * 128 + 128
    rw [e1]; omega

theorem cover12 (i : S65536x1.Idx) :
    ∃ t : Fin cfg0.N, (cfg0.win 12).flush t = true ∧ i ∈ ((cfg0.win 12).blk t).view.set := by
  have hi0 : (i 0).val < 65536 := (i 0).isLt
  have hi1 : (i 1).val < 1 := (i 1).isLt
  refine ⟨pointOf (i 0).val hi0, flush0_12 _, ?_⟩
  rw [mem_blk12]
  obtain ⟨-, -, -, -, e0, e1⟩ := idx_rows (pointOf (i 0).val hi0)
  intro a
  match a with
  | ⟨0, _⟩ =>
    show win0_12.index (pointOf (i 0).val hi0) (0 : Fin 2) * 2048 ≤ (i 0).val
      ∧ (i 0).val < win0_12.index (pointOf (i 0).val hi0) (0 : Fin 2) * 2048 + 2048
    rw [e0]; show (i 0).val / 2048 * 2048 ≤ (i 0).val ∧ (i 0).val < (i 0).val / 2048 * 2048 + 2048; omega
  | ⟨1, _⟩ =>
    show win0_12.index (pointOf (i 0).val hi0) (1 : Fin 2) * 1 ≤ (i 1).val
      ∧ (i 1).val < win0_12.index (pointOf (i 0).val hi0) (1 : Fin 2) * 1 + 1
    rw [e1]; omega

/-- The first result's array after the run. -/
theorem final11 : (dats m 0 c).arrAt 11 cfg0.N = zFinal m c :=
  (dats m 0 c).arrAt_eq_of_cover 11 (zFinal m c) (fun t _ => flushed11_eq m c t) cover11

/-- The second result's column after the run. -/
theorem final12 : (dats m 0 c).arrAt 12 cfg0.N = ldFinal m c :=
  (dats m 0 c).arrAt_eq_of_cover 12 (ldFinal m c) (fun t _ => flushed12_eq m c t) cover12

end Cert.Coupling.KernelSide

end
-- ==== Proof.KernelTail.lean ====
/-
  The line after the kernel's launch: the second result, written by the kernel as a [65536, 1] column, is reshaped to
  a [65536] vector; entry r of the vector is entry (r, 0) of the column.
-/
import proofs.«146900_j77953656423056_2_alg».proof.Proof.Gen.KernelIdeal.Frame
import proofs.«146900_j77953656423056_2_alg».proof.Proof.LibColumnCast
import Idealize.ShloMosaic.Lib.ValueLayout
import Idealize.ShloMosaic.Lib.Pipeline.Value
import Idealize.ShloMosaic.Lib.StableHlo.Run

noncomputable section

namespace Cert.Coupling.KernelSide

open Idealize.ShloMosaic Idealize.ShloMosaic.TcCoe Idealize.ShloMosaic.ValueIdx Cert.KernelIdeal Cert.KernelIdeal.Gen Cert.Coupling
open Idealize.ShloMosaic.Pipeline (Dat Cfg Window)
open Cert.LibColumnCast

variable (m : (ℓ : Loc nD τ sig) → Buf (Elt Ideal) ℓ) (c : Dev nD)

/-- Entry r of the second result after the last host line is entry (r, 0) of the column the kernel's pipeline leaves. -/
theorem tail_v13 (r : Fin 65536) :
    Pipeline.afterTail₀ cfgs (dats m) 0 (V0 m) [hostOps1] c main_v13 (ix1 r)
      = (dats m 0 c).arrAt 12 cfg0.N (ix2 r (0 : Fin 1)) := by
  unfold Pipeline.afterTail₀
  show StableHlo.after hostOps1 _ (Proc.devRef .tc main_v13) _ = _
  after_results
  have e := Pipeline.withArrays_arr spec0 launch0.win.arr_inj c (V0 m c) (fun w => (dats m 0 c).arrAt w cfg0.N) 12
  show shapeCast S65536 (Pipeline.withArrays spec0 c (V0 m c) (fun w => (dats m 0 c).arrAt w cfg0.N)
    (Proc.devRef .tc (Pipeline.arrRef spec0 12))) shapeCasts_S65536x1_S65536 (ix1 r) = _
  rw [e]
  exact shapeCast_a1_a_apply _ _ r

end Cert.Coupling.KernelSide

end
-- ==== Proof.KernelRun.lean ====
/-
  The kernel program's run with both results named: every weakly fair execution ends with the first result's array at
  the layer's first result of the arguments, the reshaped column at its second result, and the arguments as launched.
-/
import proofs.«146900_j77953656423056_2_alg».proof.Proof.Gen.KernelIdeal.Frame
import proofs.«146900_j77953656423056_2_alg».proof.Proof.KernelFinal
import proofs.«146900_j77953656423056_2_alg».proof.Proof.KernelTail

set_option maxRecDepth 16384

noncomputable section

namespace Cert.Coupling.KernelSide

open Idealize.ShloMosaic Idealize.ShloMosaic.TcCoe Idealize.ShloMosaic.ValueIdx Idealize.SL.Sem
open Cert.KernelIdeal Cert.KernelIdeal.Gen Cert.Coupling
open Idealize.ShloMosaic.Pipeline (Dat Cfg Window)

variable (m : (ℓ : Loc nD τ sig) → Buf (Elt Ideal) ℓ) (ρ : Dev nD → PrngReg)

/-- The vector the program returns second: the column after the run, its unit axis dropped. -/
theorem tail_eq (c : Dev nD) :
    Pipeline.afterTail₀ cfgs (dats m) 0 (V0 m) [hostOps1] c main_v13 = logDet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, rfl⟩ : ∃ r : Fin 65536, i = ix1 r := ⟨i 0, eq_ix1 i⟩
  rw [tail_v13 m c r, final12]
  rfl

theorem run : θ_run defs (onTc (τ := τ) (main (F := Ideal))) ⟨m, fun _ => 0, ρ⟩ (fun r => ∀ c : Dev nD,
      r.2.mem ((c.tc : Thread nD τ).loc main_v12_0) = zOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v13) = logDet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).1 11).trans (final11 m c),
      ((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 8).trans (((dats m 0 c).arrAt_in 8 rfl _).trans ((A_eq m c 8).trans (V_main_arg10 m c))),
      ((h c).2 main_arg11 (Pipeline.mem_restRefs_of main_arg11 (by decide) (by decide))).trans (W_main_arg11 m (dats m) c),
      ((h c).1 10).trans (((dats m 0 c).arrAt_in 10 rfl _).trans ((A_eq m c 10).trans (V_main_arg12 m c)))⟩)
    (run_main m ρ)

end Cert.Coupling.KernelSide

end
-- ==== Proof.lean ====
/-
  The affine coupling layer: the Pallas kernel against its jnp reference, over the extended reals.

  Both programs compute, for every row r of z : [65536, 128] and with z1 the row's first 64 columns,
    z_out[r, c] = z[r, c] (c < 64),   z_out[r, 64 + j] = z[r, 64 + j] · exp(clip(s(z1))_j) + t(z1)_j,
    log_det[r] = Σ_j clip(s(z1))_j,
  where s and t are four-layer ReLU perceptrons and clip clamps to [-2, 2] (Proof/Spec.lean states this once, index
  by index).  The reference computes each perceptron layer as a product with the transposed weight matrix plus a
  broadcast bias (Proof/RefValue.lean reads its run stage by stage).  The kernel works on 32 blocks of 2048 rows; it
  takes the weights already transposed, computes the two first layers as ONE product with the two weight matrices side
  by side and cuts the result in two, and changes float format before every product, which is the identity on the
  extended reals.  Entry by entry each product is the same finite sum of the same products, so no term is ever moved:
  the proof needs commutativity of nothing and no finiteness of the inputs.  Proof/KernelLayers.lean reads the body's
  layers at an entry, Proof/KernelBody.lean the two stores as the layer's results on the block's rows,
  Proof/KernelHost.lean the transposed operands the program builds before the launch, Proof/KernelBlocks.lean and
  Proof/KernelFinal.lean the blocks and their cover of the two arrays, Proof/KernelTail.lean the reshape of the second
  result, Proof/KernelRun.lean the run.  The frames are the generated ones; nothing was idealized, so there is
  nothing to preserve.
-/
import proofs.«146900_j77953656423056_2_alg».proof.Defs
import proofs.«146900_j77953656423056_2_alg».proof.Proof.Gen.Kernel
import proofs.«146900_j77953656423056_2_alg».proof.Proof.Gen.Kernel.Skeleton
import proofs.«146900_j77953656423056_2_alg».proof.Proof.Gen.Kernel.Launch
import proofs.«146900_j77953656423056_2_alg».proof.Proof.Gen.Kernel.Points
import proofs.«146900_j77953656423056_2_alg».proof.Proof.Gen.Kernel.Frame
import proofs.«146900_j77953656423056_2_alg».proof.Proof.Gen.KernelIdeal
import proofs.«146900_j77953656423056_2_alg».proof.Proof.Gen.KernelIdeal.Skeleton
import proofs.«146900_j77953656423056_2_alg».proof.Proof.Gen.KernelIdeal.Launch
import proofs.«146900_j77953656423056_2_alg».proof.Proof.Gen.KernelIdeal.Points
import proofs.«146900_j77953656423056_2_alg».proof.Proof.Gen.KernelIdeal.Frame
import proofs.«146900_j77953656423056_2_alg».proof.Proof.Gen.ReferenceIdeal
import proofs.«146900_j77953656423056_2_alg».proof.Proof.Gen.Pre_finite_inputs
import proofs.«146900_j77953656423056_2_alg».proof.Proof.Gen.ReferenceIdeal.Run
import proofs.«146900_j77953656423056_2_alg».proof.Proof.Gen.ReferenceIdeal.Read
import proofs.«146900_j77953656423056_2_alg».proof.Proof.RefValue
import proofs.«146900_j77953656423056_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end at the layer's two results of arguments that agree. -/
theorem algebraic : Cert.algebraic_KernelIdeal_ReferenceIdeal := by
  intro m ρ m' ρ' _ hagree
  refine ⟨_, _, Cert.Coupling.KernelSide.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12⟩ := hagree c
  refine ⟨(h c).1.trans ?_, (h c).2.1.trans ?_, (h c).2.2⟩
  · rw [Cert.ReferenceIdeal.Read.val_main_v68_eq, Cert.Coupling.RefSide.ref_zOut, g0, g1, g2, g3, g4, g5, g6, g7, g8, g9, g10, g11, g12]
  · rw [Cert.ReferenceIdeal.Read.val_main_v69_eq, Cert.Coupling.RefSide.ref_logDet, g0, g1, g2, g3, g4, g5, g6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
